-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S200000x128 .f32) (main_arg1 : IVec S2x600000 32) (main_arg2 : FVec F S128x128 .f32) (main_arg3 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S200000x128 : Shape := ⟨2, ![200000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S200000 : Shape := ⟨1, ![200000]⟩
abbrev S600000x1 : Shape := ⟨2, ![600000, 1]⟩
abbrev S200000x1 : Shape := ⟨2, ![200000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩

abbrev nBuf : Space → Nat
  | .hbm => 45
  | .vmem => 16
  | .smem => 0
  | _ => 0

abbrev bufTy : (tb : Table) → Fin (tcTables nBuf tb) → BufTy
  | .hbm, ⟨0, _⟩ => ⟨S200000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .f32⟩
  | .hbm, ⟨9, _⟩ => ⟨S600000, .f32⟩
  | .hbm, ⟨10, _⟩ => ⟨S_, .f32⟩
  | .hbm, ⟨11, _⟩ => ⟨S200000, .f32⟩
  | .hbm, ⟨12, _⟩ => ⟨S600000x1, .i32⟩
  | .hbm, ⟨13, _⟩ => ⟨S200000, .f32⟩
  | .hbm, ⟨14, _⟩ => ⟨S_, .f32⟩
  | .hbm, ⟨15, _⟩ => ⟨S200000, .f32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .i1⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S200000x1, .f32⟩
  | .hbm, ⟨29, _⟩ => ⟨S200000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S200000x128, .f32⟩
  | .hbm, ⟨41, _⟩ => ⟨S600000x1, .i32⟩
  | .hbm, ⟨42, _⟩ => ⟨S200000x128, .f32⟩
  | .hbm, ⟨43, _⟩ => ⟨S1x128, .f32⟩
  | .hbm, ⟨44, _⟩ => ⟨S200000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  shapeCasts_S200000_S200000x1 : S200000.ShapeCasts S200000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S200000x128 : S_.BroadcastsInDim S200000x128 (![] : Fin 0 → Fin S200000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S200000_S600000x1_S600000_n_0_0_1_wf : ScatterDims.WF S200000 S600000x1 S600000 [] [0] [0] 1
  dot_S5000x128_S128x128_S5000x128_1_0_0_1_n_n_wf : DotDims.WF S5000x128 S128x128 S5000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S200000x128.size a
  hwx0_3 : ∀ i : grid0.Coords, EltTy.bits .f32 = 32 ∨ (Rect.block (s := S200000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S200000x128.size a
  hwx1_1 : ∀ i : grid1.Coords, EltTy.bits .f32 = 32 ∨ (Rect.block (s := S200000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S200000x128.size a
  hwx1_4 : ∀ i : grid1.Coords, EltTy.bits .f32 = 32 ∨ (Rect.block (s := S200000x128) S5000x128.size (cc1_transform_4 i) (hinb1_4 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x600000 : Shape := ⟨2, ![2, 600000]⟩
abbrev S128x128 : Shape := ⟨2, ![128, 128]⟩
abbrev S128 : Shape := ⟨1, ![128]⟩
abbrev S200000 : Shape := ⟨1, ![200000]⟩
abbrev S1x600000 : Shape := ⟨2, ![1, 600000]⟩
abbrev S600000 : Shape := ⟨1, ![600000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S200000, .i32⟩
  | .hbm, ⟨5, _⟩ => ⟨S1x600000, .i32⟩
  | .hbm, ⟨6, _⟩ => ⟨S600000, .i32⟩
  | .hbm, ⟨7, _⟩ => ⟨S800000, .i32⟩
  | .hbm, ⟨8, _⟩ => ⟨S1x600000, .i32⟩
  | .hbm, ⟨9, _⟩ => ⟨S600000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S200000, .f32⟩
  | .hbm, ⟨15, _⟩ => ⟨S800000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .i1⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S200000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S200000x128, .f32⟩
  | .hbm, ⟨62, _⟩ => ⟨S800000x1, .i32⟩
  | .hbm, ⟨63, _⟩ => ⟨S200000x128, .f32⟩
  | .hbm, ⟨64, _⟩ => ⟨S1x128, .f32⟩
  | .hbm, ⟨65, _⟩ => ⟨S200000x128, .f32⟩
  | .hbm, ⟨66, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S200000_S800000_d0 : Shape.Concatenates [S600000, S200000] S800000 0
  slices_S2x600000_S1x600000_1_0 : S2x600000.Slices ![1, 0] S1x600000
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  dot_S200000x128_S128x128_S200000x128_1_0_0_1_n_n_wf : DotDims.WF S200000x128 S128x128 S200000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf

class Facts : Prop extends Facts₀ where

variable [Facts]
-- ==== Proof.KernelRun.lean ====
/- The kernel's run with its result array named: at the compiled mesh, from any memory with zero
   counters, every weakly fair execution of @main terminates without fault, the result array
   holds what the fold of the buffer contents through @main leaves in it, and the four argument arrays
   are as launched. -/
import proofs.«128256_j82669530513964_2_alg».proof.Proof.Gen.KernelIdeal.Frame
import Idealize.ShloMosaic.PureOps.Ideal

set_option maxRecDepth 16384

noncomputable section

namespace Cert.KernelIdeal.RegionValue

open Cert.KernelIdeal Cert.KernelIdeal.Gen Idealize.ShloMosaic Idealize.SL.Sem
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

-- the launch lemma's implicit arguments are found by unifying its conclusion with this one, which takes unfolding
-- plain definitions in a metavariable's type
set_option backward.isDefEq.respectTransparency.types false in
/-- The run of @main over its six segments; the final state is read against the last boundary's
    contents at every unscoped buffer: the result array by name, each argument array walked back
    to the launch memory. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29) = Gen.W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.RegionValue

end
-- ==== Proof.Spec.lean ====
/-
  The two arrays the kernel's regions write, as functions of whole arrays, index by index, on the extended reals.
  `scaled`: row r of the projection emb · W, every entry multiplied by the row's factor (a column array).
  `combined`: the row's factor times (aggregate + scaled projection), plus the bias row.
  Indices are built from literal coordinates (`ix2 r j`), so that every coordinate has a literal `Fin` type.
-/
import Idealize.ShloMosaic.PureOps.Ideal
import Idealize.ShloMosaic.Lib.ValueIdx

noncomputable section

open scoped BigOperators

namespace Cert.Gcn

open Idealize.ShloMosaic Idealize.ShloMosaic.ValueIdx

/-- Entry (r, j) of the projection emb · W: the sum over the 128 input features. -/
def proj (emb : (⟨2, ![200000, 128]⟩ : Shape).Idx → EReal) (W : (⟨2, ![128, 128]⟩ : Shape).Idx → EReal)
    (r : Fin 200000) (j : Fin 128) : EReal :=
  ∑ k : Fin 128, emb (ix2 r k) * W (ix2 k j)

/-- The projection with row r multiplied by the column array's entry (r, 0). -/
def scaled (emb : (⟨2, ![200000, 128]⟩ : Shape).Idx → EReal) (W : (⟨2, ![128, 128]⟩ : Shape).Idx → EReal)
    (col : (⟨2, ![200000, 1]⟩ : Shape).Idx → EReal) : (⟨2, ![200000, 128]⟩ : Shape).Idx → EReal :=
  fun i => proj emb W (i 0) (i 1) * col (ix2 (i 0) (0 : Fin 1))

theorem scaled_apply (emb : (⟨2, ![200000, 128]⟩ : Shape).Idx → EReal) (W : (⟨2, ![128, 128]⟩ : Shape).Idx → EReal)
    (col : (⟨2, ![200000, 1]⟩ : Shape).Idx → EReal) (r : Fin 200000) (j : Fin 128) :
    scaled emb W col (ix2 r j) = proj emb W r j * col (ix2 r (0 : Fin 1)) := rfl

/-- Row r: the column entry (r, 0) times (agg + hp) at (r, j), plus the bias row's entry (0, j). -/
def combined (agg hp : (⟨2, ![200000, 128]⟩ : Shape).Idx → EReal) (col : (⟨2, ![200000, 1]⟩ : Shape).Idx → EReal)
    (brow : (⟨2, ![1, 128]⟩ : Shape).Idx → EReal) : (⟨2, ![200000, 128]⟩ : Shape).Idx → EReal :=
  fun i => col (ix2 (i 0) (0 : Fin 1)) * (agg i + hp i) + brow (ix2 (0 : Fin 1) (i 1))

theorem combined_apply (agg hp : (⟨2, ![200000, 128]⟩ : Shape).Idx → EReal) (col : (⟨2, ![200000, 1]⟩ : Shape).Idx → EReal)
    (brow : (⟨2, ![1, 128]⟩ : Shape).Idx → EReal) (r : Fin 200000) (j : Fin 128) :
    combined agg hp col brow (ix2 r j)
      = col (ix2 r (0 : Fin 1)) * (agg (ix2 r j) + hp (ix2 r j)) + brow (ix2 (0 : Fin 1) j) := rfl

end Cert.Gcn

end
-- ==== Proof.Terms.lean ====
/-
  The vocabulary both sides are read in, index by index, on the extended reals.
  An edge e has a source word and a target word (rows 0 and 1 of the edge array). A word used as a row number by a
  gather is first wrapped (a negative word has 200000 added) and then clamped into [0, 199999]: `rowOf`. A word used as a
  target by a scatter-add is read signed and compared with the row: an edge whose target word is not a row contributes
  nothing. `cnt i` counts (in ones) the edges into row i; the kernel's degree is that count plus one, for the row's own
  self-loop; `disOf` is the normalisation factor of a degree: its inverse square root where positive, else zero.
  `Kform`: the kernel's result at (r, j) — the row's factor times (the sum over the edges into r of the source row's scaled
  projection, plus the row's own scaled projection), plus the bias.
-/
import proofs.«128256_j82669530513964_2_alg».proof.Proof.Spec

noncomputable section

open scoped BigOperators

namespace Cert.Gcn

open Idealize.ShloMosaic Idealize.ShloMosaic.ValueIdx

/-- The source word of edge e. -/
def srcW (ei : (⟨2, ![2, 600000]⟩ : Shape).Idx → BitVec 32) (e : Fin 600000) : BitVec 32 := ei (ix2 (0 : Fin 2) e)
/-- The target word of edge e. -/
def dstW (ei : (⟨2, ![2, 600000]⟩ : Shape).Idx → BitVec 32) (e : Fin 600000) : BitVec 32 := ei (ix2 (1 : Fin 2) e)

/-- A negative word has the number of rows added: how an index below zero counts from the end. -/
def wrapW (w : BitVec 32) : BitVec 32 := Scalar.select (IntOp.cmpi .slt w 0#32) (IntOp.addi w 200000#32) w

/-- The row a gather reads for a word: wrapped, read signed, clamped into the rows. -/
def rowOf (w : BitVec 32) : Fin 200000 := ⟨min (wrapW w).toInt.toNat (200000 - 1), by omega⟩

/-- The float words of one and zero at the ideal instance. -/
def one : EReal := Ideal.ofBits .f32 0x3F800000#32
def zero : EReal := Ideal.ofBits .f32 0x00000000#32

/-- The number of edges whose target is row i, as a sum of ones. -/
def cnt (ei : (⟨2, ![2, 600000]⟩ : Shape).Idx → BitVec 32) (i : Fin 200000) : EReal :=
  ∑ e : Fin 600000, if (dstW ei e).toInt = (i.val : ℤ) then one else 0

/-- The kernel's degree of row i: the edges into it, and its self-loop. -/
def degK (ei : (⟨2, ![2, 600000]⟩ : Shape).Idx → BitVec 32) (i : Fin 200000) : EReal := (zero + cnt ei i) + one

/-- The normalisation factor of a degree d: 1/√(max d 1) where d is positive, else zero. -/
def disOf (d : EReal) : EReal := Scalar.select (Ideal.cmp .ogt d zero) (Ideal.rsqrt (max d one)) zero

def disK (ei : (⟨2, ![2, 600000]⟩ : Shape).Idx → BitVec 32) (i : Fin 200000) : EReal := disOf (degK ei i)

/-- The kernel's aggregate at (r, j): over the edges into row r, the source row's projection times the source row's factor. -/
def aggK (emb : (⟨2, ![200000, 128]⟩ : Shape).Idx → EReal) (ei : (⟨2, ![2, 600000]⟩ : Shape).Idx → BitVec 32)
    (W : (⟨2, ![128, 128]⟩ : Shape).Idx → EReal) (r : Fin 200000) (j : Fin 128) : EReal :=
  zero + ∑ e : Fin 600000, if (dstW ei e).toInt = (r.val : ℤ)
    then proj emb W (rowOf (srcW ei e)) j * disK ei (rowOf (srcW ei e)) else 0

/-- The kernel's result at (r, j). -/
def Kform (emb : (⟨2, ![200000, 128]⟩ : Shape).Idx → EReal) (ei : (⟨2, ![2, 600000]⟩ : Shape).Idx → BitVec 32)
    (W : (⟨2, ![128, 128]⟩ : Shape).Idx → EReal) (b : (⟨1, ![128]⟩ : Shape).Idx → EReal) (r : Fin 200000) (j : Fin 128) : EReal :=
  disK ei r * (aggK emb ei W r j + proj emb W r j * disK ei r) + b (ix1 j)

end Cert.Gcn

end
-- ==== Proof.RefTerms.lean ====
/-
  The reference's result read index by index. The reference has 800000 messages: the 600000 edges, then one self-loop
  per row (message 600000 + k goes from row k to row k). Its degree counts all messages into a row; every message is the
  source row's projection times the source's factor times the target's factor.
-/
import proofs.«128256_j82669530513964_2_alg».proof.Proof.Terms

noncomputable section

open scoped BigOperators

namespace Cert.Gcn

open Idealize.ShloMosaic Idealize.ShloMosaic.ValueIdx

/-- The target word of message e: an edge's target word, or the self-loop's row number as a word. -/
def tgtW' (ei : (⟨2, ![2, 600000]⟩ : Shape).Idx → BitVec 32) (e : Fin 800000) : BitVec 32 :=
  if h : e.val < 600000 then dstW ei ⟨e.val, h⟩ else BitVec.ofNat 32 (e.val - 600000)

/-- The source word of message e: an edge's source word, or the self-loop's row number as a word. -/
def srcW' (ei : (⟨2, ![2, 600000]⟩ : Shape).Idx → BitVec 32) (e : Fin 800000) : BitVec 32 :=
  if h : e.val < 600000 then srcW ei ⟨e.val, h⟩ else BitVec.ofNat 32 (e.val - 600000)

/-- The reference's degree of row i: the messages into it, as a sum of ones. -/
def degR (ei : (⟨2, ![2, 600000]⟩ : Shape).Idx → BitVec 32) (i : Fin 200000) : EReal :=
  zero + ∑ e : Fin 800000, if (tgtW' ei e).toInt = (i.val : ℤ) then one else 0

def disR (ei : (⟨2, ![2, 600000]⟩ : Shape).Idx → BitVec 32) (i : Fin 200000) : EReal := disOf (degR ei i)

/-- The reference's result at (r, j): the sum over the messages into row r of the source row's projection times
    (source factor times target factor), plus the bias. -/
def Rform (emb : (⟨2, ![200000, 128]⟩ : Shape).Idx → EReal) (ei : (⟨2, ![2, 600000]⟩ : Shape).Idx → BitVec 32)
    (W : (⟨2, ![128, 128]⟩ : Shape).Idx → EReal) (b : (⟨1, ![128]⟩ : Shape).Idx → EReal) (r : Fin 200000) (j : Fin 128) : EReal :=
  (zero + ∑ e : Fin 800000, if (tgtW' ei e).toInt = (r.val : ℤ)
      then proj emb W (rowOf (srcW' ei e)) j * (disR ei (rowOf (srcW' ei e)) * disR ei (rowOf (tgtW' ei e))) else 0)
    + b (ix1 j)

end Cert.Gcn

end
-- ==== Proof.Finite.lean ====
/-
  Finiteness from the precondition. The precondition says, on every device, that the conjunction over all entries of
  "|x| < +∞" is 1 for each float argument array (the three conjunctions joined by and). Read back entry by entry:
  every entry of the embedding array and of the weight array is a real number (neither infinity, and not the junk value
  the extended reals use for an undefined result, which is −∞: |−∞| = +∞ is not below +∞).
  Also here: the coercion of a finite sum of reals into the extended reals is the sum of the coercions.
-/
import proofs.«128256_j82669530513964_2_alg».proof.Defs
import proofs.«128256_j82669530513964_2_alg».proof.Proof.Gen.KernelIdeal
import proofs.«128256_j82669530513964_2_alg».proof.Proof.Gen.Pre_finite_inputs
import Idealize.ShloMosaic.Lib.ReduceAll
import Idealize.ShloMosaic.Lib.ValueIdx

noncomputable section

open scoped BigOperators

namespace Cert.Gcn.Finite

open Cert.KernelIdeal Idealize.ShloMosaic Idealize.ShloMosaic.ValueIdx Idealize.SL.Sem

/-- The f32 word 0x7F800000 (sign 0, exponent all ones, fraction 0) denotes +∞. -/
theorem inf_word : Ideal.ofBits .f32 0x7F800000#32 = (⊤ : EReal) := by
  simp [Ideal.ofBits, Ideal.ieee]

/-- An extended real whose absolute value max x (−x) lies strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A strict comparison "x < y" that answered 1 holds. -/
theorem lt_of_cmp_olt {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h
  exact absurd h (by decide)

/-- If the conjunction over all entries of "|x| < +∞" (a reduction by and, started at 1, over every axis, into a result
    of one index) is 1, then every entry of x is a real number. Generic in the array's shape. -/
theorem real_of_all {s : Shape} {axes : List (Fin s.rank)} (x : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf x)
          (broadcastInDim s ![] bc (constant (F := Ideal) (⟨0, ![]⟩ : Shape) .f32 0x7F800000#32)))
          (constantI (⟨0, ![]⟩ : Shape) 1 1#1) hr hu ix0 = 1#1) (i : s.Idx) :
    ∃ r : ℝ, x i = (r : EReal) := by
  -- the result shape has rank 0, so it has exactly one index
  haveI : Subsingleton (⟨0, ![]⟩ : Shape).Idx := ⟨fun a b => funext fun d => d.elim0⟩
  -- every entry of the compared array is 1
  have h1 := Host.reduce_andi_all _ _ hr hu ix0 e i
  -- at entry i that comparison is max (x i) (−x i) < (the word's value), and the broadcast scalar is that value everywhere
  have h2 : Ideal.cmp .olt (max (x i) (-(x i))) (Ideal.ofBits .f32 0x7F800000#32) = 1#1 := h1
  rw [inf_word] at h2
  exact real_of_abs_lt_top (x i) (lt_of_cmp_olt h2)

/-- Under the precondition, on every device, every entry of the embedding array (argument 0) and of the weight array
    (argument 2) is a real number. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ x : ℝ, (m ((c.tc : Thread nD τ).loc main_arg0) : (⟨2, ![200000, 128]⟩ : Shape).Idx → EReal) i = (x : EReal))
    ∧ (∀ i, ∃ x : ℝ, (m ((c.tc : Thread nD τ).loc main_arg2) : (⟨2, ![128, 128]⟩ : Shape).Idx → EReal) i = (x : EReal)) := by
  -- the predicate's value at its one index is 1
  have h0 := congrFun (h c) ValueIdx.ix0
  -- the four argument arrays, as variables: nothing below depends on the memory they were read from
  generalize m ((c.tc : Thread nD τ).loc main_arg0) = a0 at h0 ⊢
  generalize m ((c.tc : Thread nD τ).loc main_arg1) = a1 at h0 ⊢
  generalize m ((c.tc : Thread nD τ).loc main_arg2) = a2 at h0 ⊢
  generalize m ((c.tc : Thread nD τ).loc main_arg3) = a3 at h0 ⊢
  dsimp only [Cert.Pre_finite_inputs.fn] at h0
  -- (all₀ and all₂) and all₃ = 1: split the two conjunctions
  obtain ⟨h12, _⟩ := IntOp.andi_eq_one.1 h0
  obtain ⟨hA, hB⟩ := IntOp.andi_eq_one.1 h12
  exact ⟨fun i => real_of_all a0 _ _ _ hA i, fun i => real_of_all a2 _ _ _ hB i⟩

/-- The coercion ℝ → extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Gcn.Finite

end
-- ==== Proof.Assemble.lean ====
/-
  The assembly of the algebraic claim. On the extended reals, from memories that agree on the four argument arrays, the
  kernel's run leaves in its result array a function of the launch memory, and the reference's run leaves in its result
  array the reference's composed term of its own arguments. The two are one array, entry by entry: at (r, j) the
  kernel's entry is its closed form K (the row's factor times the aggregate of the scaled projections over the edges
  into r plus the row's own scaled projection, plus the bias), the reference's entry is its closed form R (the sum over
  all messages into r, self-loops included, of projection times source factor times target factor, plus the bias), and
  K = R whenever every entry of the embedding array and of the weight array is a real number, which the precondition
  gives. The three facts "kernel entry = K", "reference entry = R" and "K = R on real inputs" are hypotheses here.
-/
import proofs.«128256_j82669530513964_2_alg».proof.Defs
import proofs.«128256_j82669530513964_2_alg».proof.Proof.Gen.KernelIdeal.Frame
import proofs.«128256_j82669530513964_2_alg».proof.Proof.KernelRun
import proofs.«128256_j82669530513964_2_alg».proof.Proof.RefReadP
import proofs.«128256_j82669530513964_2_alg».proof.Proof.Terms
import proofs.«128256_j82669530513964_2_alg».proof.Proof.RefTerms
import proofs.«128256_j82669530513964_2_alg».proof.Proof.Finite

noncomputable section

namespace Cert.Proof.Assemble

open Idealize.ShloMosaic Idealize.ShloMosaic.ValueIdx Idealize.ShloMosaic.TcCoe Idealize.SL.Sem

theorem algebraic_of
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (r : Fin 200000) (j : Fin 128),
      Cert.KernelIdeal.Gen.W6 (F := Ideal) m ρ c (Proc.devRef .tc Cert.KernelIdeal.main_v29) (ix2 r j)
        = Cert.Gcn.Kform (m ((c.tc : Thread Cert.KernelIdeal.nD Cert.KernelIdeal.τ).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) r j)
    (hR : ∀ (x0 : (⟨Cert.ReferenceIdeal.S200000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (r : Fin 200000) (j : Fin 128),
      Cert.ReferenceIdeal.Read.val_main_v48 (F := Ideal) x0 x1 x2 x3 (ix2 r j) = Cert.Gcn.Rform x0 x1 x2 x3 r j)
    (hB : ∀ (emb : (⟨2, ![200000, 128]⟩ : Shape).Idx → EReal) (ei : (⟨2, ![2, 600000]⟩ : Shape).Idx → BitVec 32) (W : (⟨2, ![128, 128]⟩ : Shape).Idx → EReal) (b : (⟨1, ![128]⟩ : Shape).Idx → EReal),
      (∀ i, ∃ x : ℝ, emb i = (x : EReal)) → (∀ i, ∃ x : ℝ, W i = (x : EReal)) → ∀ (r : Fin 200000) (j : Fin 128), Cert.Gcn.Kform emb ei W b r j = Cert.Gcn.Rform emb ei W b r j) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.W6 (F := Ideal) m ρ c (Proc.devRef .tc Cert.KernelIdeal.main_v29),
    Cert.KernelIdeal.RegionValue.run_named m ρ, ?_⟩
  refine (θ_run Cert.ReferenceIdeal.defs _ _).mono (fun _ h c => ⟨(h c).1.trans ?_, (h c).2⟩)
    (Cert.ReferenceIdeal.Value.run (F := Ideal) m' ρ')
  -- the reference's result term is the reference's stage function of its four argument arrays
  refine (Cert.ReferenceIdeal.Read.val_main_v48_eq (F := Ideal) m' c).trans ?_
  -- which are the kernel's argument arrays
  rw [(hagree c).1, (hagree c).2.1, (hagree c).2.2.1, (hagree c).2.2.2]
  -- entry by entry, at literal coordinates
  funext i
  obtain ⟨r, j, rfl⟩ : ∃ (r : Fin 200000) (j : Fin 128), i = ix2 r j := ⟨i 0, i 1, ValueIdx.eq_ix2 i⟩
  obtain ⟨hf0, hf2⟩ := Cert.Gcn.Finite.finite_of_pre m hpre c
  exact (hR _ _ _ _ r j).trans (((hB _ _ _ _ hf0 hf2 r j).symm).trans (hK m ρ c r j).symm)

end Cert.Proof.Assemble

end
-- ==== Proof.LibKeepdims.lean ====
/-
  Column ("keepdims") layout operations read at an index.

  A sum over the last axis kept as a unit axis produces a column `[a, 1]`; kernels then re-lay that column: a vector
  `[a]` cast to the column `[a, 1]`, and the column broadcast along its unit axis to `[a, b]`. Each lemma reads one of
  these operations at an index written by coordinates, in the style of the library's leading-unit-axis lemmas
  (the transposed column `[a, 1] → [1, a]` and the row broadcast `[1, b] → [a, b]` are the library's
  `transpose_ix2_apply` and `broadcastTo_1b_ab_apply`). General in the extents.
-/
import Idealize.ShloMosaic.Lib.Pipeline.Value
import Idealize.ShloMosaic.Lib.ValueIdx
import Idealize.ShloMosaic.Lib.ValueLayout

namespace Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the unit axis is
    repeated along the columns. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/- What the first region leaves in its output array.
   At grid point t the body reads rows 5000 t … 5000 t + 4999 of the embedding and of the column of row factors, and
   the whole 128 × 128 weight, and stores, at local entry (p, q), the sum over the 128 input features k of
   embedding(p, k) * weight(k, q), multiplied by factor(p): entry (p, q) depends on row p of the block only.
   The forty blocks tile the 200000 rows, so the array ends as the whole-array function `Cert.Gcn.scaled`
   of the three arrays the region finds on entry. -/
import proofs.«128256_j82669530513964_2_alg».proof.Proof.Gen.KernelIdeal.Frame
import proofs.«128256_j82669530513964_2_alg».proof.Proof.Spec
import proofs.«128256_j82669530513964_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx Idealize.SL.Sem
open Idealize.ShloMosaic.TcCoe
open Idealize.ShloMosaic.Pipeline (Dat)

/-- The zero offsets of a whole-buffer access, as the constant function. -/
theorem zero_offsets0 : (![0, 0] : Fin 2 → Nat) = fun _ => 0 := funext fun a => by fin_cases a <;> rfl

/-! ## The product's operand indices -/

/-- The left operand is read at the output's row … -/
theorem lhs0_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and the contracted feature; -/
theorem lhs0_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand at the contracted feature … -/
theorem rhs0_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and the output's column. -/
theorem rhs0_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The body's arithmetic at a local entry -/

/-- The product of the two blocks into the zero accumulator, at (p, q): the sum over the 128 features. -/
theorem matmul0_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- Entry (p, q) of what the body stores: the sum over the features k of block(p, k) * weight(k, q), times the row's
    factor (the narrowing of the operands is the identity on the extended reals). -/
theorem pay0_apply (x0 : Vec Ideal S5000x128 .f32) (x1 : Vec Ideal S128x128 .f32) (x2 : Vec Ideal S5000x1 .f32)
    (p : Fin 5000) (q : Fin 128) :
    k0_pay1 x0 x1 x2 (ix2 p q)
      = (∑ k : Fin 128, x0 (ix2 p k) * x1 (ix2 k q)) * x2 (ix2 p (0 : Fin 1)) := by
  unfold k0_pay1
  simp only [shapeCast_self]
  rw [mulf_apply, broadcastTo_a1_ab_apply, matmul0_apply]
  rfl

/-! ## The grid: which block of each array a point reads and writes -/

/-- Point t reads block t (rows 5000 t …) of the embedding and of the column, the one block of the weight, and
    writes block t of the result: decided over the forty points. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The input blocks as rows of the arrays -/

/-- Entry (p, k) of the embedding's block at point t is entry (5000 t + p, k) of the array. -/
theorem iblk0_0_apply (V : (c : Dev nD) → (b : Ref sig .tc) → Buf (Elt Ideal) ((c : Thread nD τ).loc b)) (c : Dev nD) (t : Fin cfg0.N)
    (p : Fin 5000) (k : Fin 128) (r : Fin 200000) (hr : r.val = t.val * 5000 + p.val) :
    (iblk0 (F := Ideal) V c 0 t : Vec Ideal S5000x128 .f32) (ix2 p k) = (V c main_arg0 : S200000x128.Idx → EReal) (ix2 r k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight's block is the whole weight at every point. -/
theorem iblk0_1_apply (V : (c : Dev nD) → (b : Ref sig .tc) → Buf (Elt Ideal) ((c : Thread nD τ).loc b)) (c : Dev nD) (t : Fin cfg0.N) (k : Fin 128) (q : Fin 128) :
    (iblk0 (F := Ideal) V c 1 t : Vec Ideal S128x128 .f32) (ix2 k q) = (V c main_arg2 : S128x128.Idx → EReal) (ix2 k q) := by
  obtain ⟨-, -, e0, e1, -⟩ := idx_facts0 t
  unfold iblk0
  rw [View.read_apply]
  show V c main_arg2 _ = V c main_arg2 _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry (p, 0) of the column's block at point t is entry (5000 t + p, 0) of the column. -/
theorem iblk0_2_apply (V : (c : Dev nD) → (b : Ref sig .tc) → Buf (Elt Ideal) ((c : Thread nD τ).loc b)) (c : Dev nD) (t : Fin cfg0.N)
    (p : Fin 5000) (r : Fin 200000) (hr : r.val = t.val * 5000 + p.val) :
    (iblk0 (F := Ideal) V c 2 t : Vec Ideal S5000x1 .f32) (ix2 p (0 : Fin 1)) = (V c main_v16 : S200000x1.Idx → EReal) (ix2 r (0 : Fin 1)) := by
  obtain ⟨-, -, -, -, e0, e1, -⟩ := idx_facts0 t
  unfold iblk0
  rw [View.read_apply]
  show V c main_v16 _ = V c main_v16 _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * (0 : Nat) = (0 : Nat); omega

/-! ## What a point writes back -/

/-- Point t writes back block t of `Cert.Gcn.scaled` of the three arrays the region finds on entry. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal)
          (Cert.Gcn.scaled (V c main_arg0) (V c main_arg2) (V c main_v16)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x128) zero_offsets0,
    View.ld_unit_zero (S := S5000x1) zero_offsets0]
  funext j
  obtain ⟨p, q, rfl⟩ : ∃ (p : Fin 5000) (q : Fin 128), j = ix2 p q := ⟨j 0, j 1, eq_ix2 j⟩
  obtain ⟨-, -, -, -, -, -, e0, e1⟩ := idx_facts0 t
  have ht : t.val < 40 := lt_of_lt_of_eq t.isLt N_0
  have hr : t.val * 5000 + p.val < 200000 := by omega
  rw [View.read_apply]
  have hemb : ((cfg0.win 3).blk t).view.emb (ix2 p q) = ix2 (⟨t.val * 5000 + p.val, hr⟩ : Fin 200000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q)
    = Cert.Gcn.scaled (V c main_arg0) (V c main_arg2) (V c main_v16) (((cfg0.win 3).blk t).view.emb (ix2 p q))
  rw [hemb, Cert.Gcn.scaled_apply]
  refine (pay0_apply (iblk0 V c 0 t) (iblk0 V c 1 t) (iblk0 V c 2 t) p q).trans ?_
  rw [iblk0_2_apply V c t p ⟨t.val * 5000 + p.val, hr⟩ rfl]
  refine congrArg (· * _) (Finset.sum_congr rfl fun k _ => ?_)
  rw [iblk0_0_apply V c t p k ⟨t.val * 5000 + p.val, hr⟩ rfl, iblk0_1_apply V c t k q]

/-! ## The blocks tile the array -/

/-- An index is in point t's block iff each coordinate is in the block's range on its axis. -/
theorem mem_blk0 (t : Fin cfg0.N) (i : S200000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Row r lies in the block of point r / 5000, which writes back. -/
theorem cover0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hlt : (i 0).val / 5000 < cfg0.N := lt_of_lt_of_eq (b := 40) (by omega) N_0.symm
  obtain ⟨-, -, -, -, -, -, e0, e1⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-! ## The array after the region -/

/-- The first region's output array ends as `Cert.Gcn.scaled` of the embedding, the weight and the column of row
    factors, as the region finds them. -/
theorem final0 (V : (c : Dev nD) → (b : Ref sig .tc) → Buf (Elt Ideal) ((c : Thread nD τ).loc b)) (c : Dev nD) :
    (Gen.dat0 (F := Ideal) V c).arrAt 3 cfg0.N
      = Cert.Gcn.scaled (V c main_arg0) (V c main_arg2) (V c main_v16) :=
  (dat0 (F := Ideal) V c).arrAt_eq_of_cover 3 _ (fun t _ => flushed0_eq V c t) cover0

end Cert.KernelIdeal.RegionValue

end
-- ==== Proof.Region1.lean ====
/- What the second region leaves in its output array.
   At grid point t the body reads rows 5000 t … 5000 t + 4999 of the aggregate, of the scaled projection and of the
   column of row factors, and the whole bias row, and stores, at local entry (p, q),
   factor(p) * (aggregate(p, q) + projection(p, q)) + bias(q).
   The forty blocks tile the 200000 rows, so the array ends as the whole-array function `Cert.Gcn.combined`
   of the four arrays the region finds on entry. -/
import proofs.«128256_j82669530513964_2_alg».proof.Proof.Gen.KernelIdeal.Frame
import proofs.«128256_j82669530513964_2_alg».proof.Proof.Spec
import proofs.«128256_j82669530513964_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.ValueIdx Idealize.SL.Sem
open Idealize.ShloMosaic.TcCoe
open Idealize.ShloMosaic.Pipeline (Dat)

/-- The zero offsets of a whole-buffer access, as the constant function. -/
theorem zero_offsets1 : (![0, 0] : Fin 2 → Nat) = fun _ => 0 := funext fun a => by fin_cases a <;> rfl

/-! ## The body's arithmetic at a local entry -/

/-- Entry (p, q) of what the body stores: the row's factor times the sum of the two blocks' entries, plus the bias
    row's entry q. -/
theorem pay1_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = x2 (ix2 p (0 : Fin 1)) * (x0 (ix2 p q) + x1 (ix2 p q)) + x3 (ix2 (0 : Fin 1) q) := by
  unfold k1_pay1
  simp only [shapeCast_self]
  rw [addf_apply, mulf_apply, addf_apply, broadcastTo_a1_ab_apply, broadcastTo_1b_ab_apply]

/-! ## The grid: which block of each array a point reads and writes -/

/-- Point t reads block t (rows 5000 t …) of the aggregate, of the scaled projection and of the column, the one
    block of the bias row, and writes block t of the result: decided over the forty points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks as rows of the arrays -/

/-- Entry (p, q) of the aggregate's block at point t is entry (5000 t + p, q) of the array. -/
theorem iblk1_0_apply (V : (c : Dev nD) → (b : Ref sig .tc) → Buf (Elt Ideal) ((c : Thread nD τ).loc b)) (c : Dev nD) (t : Fin cfg1.N)
    (p : Fin 5000) (q : Fin 128) (r : Fin 200000) (hr : r.val = t.val * 5000 + p.val) :
    (iblk1 (F := Ideal) V c 0 t : Vec Ideal S5000x128 .f32) (ix2 p q) = (V c main_v27 : S200000x128.Idx → EReal) (ix2 r q) := by
  obtain ⟨e0, e1, -⟩ := idx_facts1 t
  unfold iblk1
  rw [View.read_apply]
  show V c main_v27 _ = V c main_v27 _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- Entry (p, q) of the scaled projection's block at point t is entry (5000 t + p, q) of the array. -/
theorem iblk1_1_apply (V : (c : Dev nD) → (b : Ref sig .tc) → Buf (Elt Ideal) ((c : Thread nD τ).loc b)) (c : Dev nD) (t : Fin cfg1.N)
    (p : Fin 5000) (q : Fin 128) (r : Fin 200000) (hr : r.val = t.val * 5000 + p.val) :
    (iblk1 (F := Ideal) V c 1 t : Vec Ideal S5000x128 .f32) (ix2 p q) = (V c main_v17 : S200000x128.Idx → EReal) (ix2 r q) := by
  obtain ⟨-, -, e0, e1, -⟩ := idx_facts1 t
  unfold iblk1
  rw [View.read_apply]
  show V c main_v17 _ = V c main_v17 _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

/-- Entry (p, 0) of the column's block at point t is entry (5000 t + p, 0) of the column. -/
theorem iblk1_2_apply (V : (c : Dev nD) → (b : Ref sig .tc) → Buf (Elt Ideal) ((c : Thread nD τ).loc b)) (c : Dev nD) (t : Fin cfg1.N)
    (p : Fin 5000) (r : Fin 200000) (hr : r.val = t.val * 5000 + p.val) :
    (iblk1 (F := Ideal) V c 2 t : Vec Ideal S5000x1 .f32) (ix2 p (0 : Fin 1)) = (V c main_v16 : S200000x1.Idx → EReal) (ix2 r (0 : Fin 1)) := by
  obtain ⟨-, -, -, -, e0, e1, -⟩ := idx_facts1 t
  unfold iblk1
  rw [View.read_apply]
  show V c main_v16 _ = V c main_v16 _
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * (0 : Nat) = (0 : Nat); omega

/-- The bias row's block is the whole row at every point. -/
theorem iblk1_3_apply (V : (c : Dev nD) → (b : Ref sig .tc) → Buf (Elt Ideal) ((c : Thread nD τ).loc b)) (c : Dev nD) (t : Fin cfg1.N) (q : Fin 128) :
    (iblk1 (F := Ideal) V c 3 t : Vec Ideal S1x128 .f32) (ix2 (0 : Fin 1) q) = (V c main_v28 : S1x128.Idx → EReal) (ix2 (0 : Fin 1) q) := by
  obtain ⟨-, -, -, -, -, -, e0, e1, -⟩ := idx_facts1 t
  unfold iblk1
  rw [View.read_apply]
  show V c main_v28 _ = V c main_v28 _
  refine congrArg _ (funext fun a => Fin.ext ?_)
  match a with
  | ⟨0, _⟩ => show win1_3.index t (0 : Fin 2) * 1 + 1 * (0 : Nat) = (0 : Nat); omega
  | ⟨1, _⟩ => show win1_3.index t (1 : Fin 2) * 128 + 1 * q.val = q.val; omega

/-! ## What a point writes back -/

/-- Point t writes back block t of `Cert.Gcn.combined` of the four arrays the region finds on entry. -/
theorem flushed1_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal)
          (Cert.Gcn.combined (V c main_v27) (V c main_v17) (V c main_v16) (V c main_v28)) := by
  show (cfg1.win 4).cut (grid1.coords t) ((dat1 V c).after 4 t) = _
  rw [after1_4]
  unfold out1_4
  rw [View.canon_unit_zero zero_offsets1]
  simp only [View.ld_unit_zero (S := S5000x128) zero_offsets1, View.ld_unit_zero (S := S5000x1) zero_offsets1,
    View.ld_unit_zero (S := S1x128) zero_offsets1]
  funext j
  obtain ⟨p, q, rfl⟩ : ∃ (p : Fin 5000) (q : Fin 128), j = ix2 p q := ⟨j 0, j 1, eq_ix2 j⟩
  obtain ⟨-, -, -, -, -, -, -, -, e0, e1⟩ := idx_facts1 t
  have ht : t.val < 40 := lt_of_lt_of_eq t.isLt N_1
  have hr : t.val * 5000 + p.val < 200000 := by omega
  rw [View.read_apply]
  have hemb : ((cfg1.win 4).blk t).view.emb (ix2 p q) = ix2 (⟨t.val * 5000 + p.val, hr⟩ : Fin 200000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show k1_pay1 (iblk1 V c 0 t) (iblk1 V c 1 t) (iblk1 V c 2 t) (iblk1 V c 3 t) (ix2 p q)
    = Cert.Gcn.combined (V c main_v27) (V c main_v17) (V c main_v16) (V c main_v28) (((cfg1.win 4).blk t).view.emb (ix2 p q))
  rw [hemb, Cert.Gcn.combined_apply]
  refine (pay1_apply (iblk1 V c 0 t) (iblk1 V c 1 t) (iblk1 V c 2 t) (iblk1 V c 3 t) p q).trans ?_
  rw [iblk1_0_apply V c t p q ⟨t.val * 5000 + p.val, hr⟩ rfl, iblk1_1_apply V c t p q ⟨t.val * 5000 + p.val, hr⟩ rfl,
    iblk1_2_apply V c t p ⟨t.val * 5000 + p.val, hr⟩ rfl, iblk1_3_apply V c t q]

/-! ## The blocks tile the array -/

/-- An index is in point t's block iff each coordinate is in the block's range on its axis. -/
theorem mem_blk1 (t : Fin cfg1.N) (i : S200000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v29).slice (win1_4.rect t)).set ↔ _
  rw [View.set_slice_whole, Rect.mem_set_unit]
  exact Iff.rfl

/-- Row r lies in the block of point r / 5000, which writes back. -/
theorem cover1 (i : S200000x128.Idx) :
    ∃ t : Fin cfg1.N, (cfg1.win 4).flush t = true ∧ i ∈ ((cfg1.win 4).blk t).view.set := by
  have hi0 : (i 0).val < 200000 := (i 0).isLt
  have hi1 : (i 1).val < 128 := (i 1).isLt
  have hlt : (i 0).val / 5000 < cfg1.N := lt_of_lt_of_eq (b := 40) (by omega) N_1.symm
  obtain ⟨-, -, -, -, -, -, -, -, e0, e1⟩ := idx_facts1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e1]; omega

/-! ## The array after the region -/

/-- The second region's output array ends as `Cert.Gcn.combined` of the aggregate, the scaled projection, the
    column of row factors and the bias row, as the region finds them. -/
theorem final1 (V : (c : Dev nD) → (b : Ref sig .tc) → Buf (Elt Ideal) ((c : Thread nD τ).loc b)) (c : Dev nD) :
    (Gen.dat1 (F := Ideal) V c).arrAt 4 cfg1.N
      = Cert.Gcn.combined (V c main_v27) (V c main_v17) (V c main_v16) (V c main_v28) :=
  (dat1 (F := Ideal) V c).arrAt_eq_of_cover 4 _ (fun t _ => flushed1_eq V c t) cover1

end Cert.KernelIdeal.RegionValue

end
-- ==== Proof.LibRowOps.lean ====
/-
  GENERAL LEMMAS — row gathers and row scatter-adds read at an index.

  A row gather takes entries of a flat array [N], or rows of a matrix [N, C], at a column of n index words (an integer
  array of shape [n, 1]); a row scatter-add adds n update entries, or n update rows, into a flat array or a matrix at
  such a column of index words (a segment sum). This file names the dimension numbers of these four operations
  (gath1, gath2, scat1, scat2) and reads each operation at one index:
    * gather1_apply / gather2_apply : the operand at the row's index word, read signed and clamped into [0, N-1];
    * scatterAdd1_apply / scatterAdd2_apply (over the extended reals) : the operand's entry plus the sum, over the
      update rows whose index word read signed IS the entry's row, of the update's entry.
  The only ingredient is the definition of the two operations' index maps; no program is imported.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The axes a list leaves, and a scatter's landing index as equations on the coordinates -/

/-- An axis is among those a list of axes leaves exactly when it is not in the list. -/
theorem mem_kept {s : Shape} (axes : List (Fin s.rank)) (a : Fin s.rank) : a ∈ s.kept axes ↔ a ∉ axes := by
  simp [Shape.kept, List.mem_filter, List.mem_finRange]

/-- An update index lands at the operand index t exactly when, on every axis, its start (read signed, not clamped) plus
    its window coordinate is t's coordinate. -/
theorem resultIdx?_eq_some_iff {s si u : Shape} (d : ScatterDims s si u) {w : Nat} (k : u.Idx) (idx : IVec si w)
    (t : s.Idx) :
    d.resultIdx? k idx = some t ↔ ∀ a, d.start k idx a + (d.window k a : ℤ) = ((t a).val : ℤ) := by
  unfold ScatterDims.resultIdx?
  split
  · rename_i h
    rw [Option.some.injEq]
    constructor
    · intro hf a
      have h1 := congrArg Fin.val (congrFun hf a)
      have h2 := (h a).1
      simp only at h1
      omega
    · intro H
      funext a
      refine Fin.ext ?_
      show (d.start k idx a + (d.window k a : ℤ)).toNat = (t a).val
      rw [H a]
      exact Int.toNat_natCast _
  · rename_i h
    constructor
    · intro hf
      cases hf
    · intro H
      exfalso
      apply h
      intro a
      rw [H a]
      exact ⟨Int.natCast_nonneg _, by exact_mod_cast (t a).isLt⟩

/-! ## A scatter-add of rows into a matrix -/

/-- The dimension numbers of a scatter of rows, updates [n, C], into a matrix [N, C] at row indices [n, 1]: the update's
    axis 1 is the window, the operand's axis 0 is inserted and is the one the index names. -/
abbrev scat2 (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- Update entry (e, c) lands at (i, j) exactly when row e's index word, read signed, is i, and c is j. -/
theorem scat2_lands_iff {N C n w : Nat} (wf : ScatterDims.WF ⟨2, ![N, C]⟩ ⟨2, ![n, 1]⟩ ⟨2, ![n, C]⟩ [1] [0] [0] 1)
    (idx : IVec ⟨2, ![n, 1]⟩ w) (e : Fin n) (c : Fin C) (i : Fin N) (j : Fin C) :
    (scat2 N C n wf).resultIdx? (ix2 e c) idx = some (ix2 i j)
      ↔ ((idx (ix2 e (0 : Fin 1))).toInt = (i.val : ℤ) ∧ c = j) := by
  have hst0 : (scat2 N C n wf).start (ix2 e c) idx (0 : Fin 2) = (idx (ix2 e (0 : Fin 1))).toInt := by
    unfold ScatterDims.start
    rw [dif_pos (show (0 : Fin 2) ∈ (scat2 N C n wf).scatterDimsToOperandDims from List.mem_singleton.mpr rfl)]
    have hsi : (scat2 N C n wf).siIdx (ix2 e c) ⟨List.idxOf (0 : Fin 2) (scat2 N C n wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (scat2 N C n wf).start (ix2 e c) idx (1 : Fin 2) = 0 := by
    unfold ScatterDims.start
    rw [dif_neg (show (1 : Fin 2) ∉ (scat2 N C n wf).scatterDimsToOperandDims from (fun h => absurd (congrArg Fin.val (List.mem_singleton.mp h)) Nat.one_ne_zero))]
  have hw0 : (scat2 N C n wf).window (ix2 e c) (0 : Fin 2) = 0 := by
    unfold ScatterDims.window
    rw [dif_neg (show (0 : Fin 2) ∉ (scat2 N C n wf).sKept from fun h => (mem_kept _ _).mp h (List.mem_singleton.mpr rfl))]
  have hw1 : (scat2 N C n wf).window (ix2 e c) (1 : Fin 2) = c.val := by
    unfold ScatterDims.window
    rw [dif_pos (show (1 : Fin 2) ∈ (scat2 N C n wf).sKept from (mem_kept _ _).mpr (fun h => absurd (congrArg Fin.val (List.mem_singleton.mp h)) Nat.one_ne_zero))]
    rfl
  rw [resultIdx?_eq_some_iff]
  constructor
  · intro H
    have h0 := H (0 : Fin 2)
    have h1 := H (1 : Fin 2)
    rw [hst0, hw0] at h0
    rw [hst1, hw1] at h1
    refine ⟨?_, Fin.ext ?_⟩
    · have : ((ix2 i j (0 : Fin 2)).val : ℤ) = (i.val : ℤ) := rfl
      rw [this] at h0
      simpa using h0
    · have : ((ix2 i j (1 : Fin 2)).val : ℤ) = (j.val : ℤ) := rfl
      rw [this] at h1
      omega
  · rintro ⟨hA, rfl⟩ a
    match a with
    | ⟨0, _⟩ =>
      show (scat2 N C n wf).start (ix2 e c) idx (0 : Fin 2) + ((scat2 N C n wf).window (ix2 e c) (0 : Fin 2) : ℤ) = (i.val : ℤ)
      rw [hst0, hw0, hA]; simp
    | ⟨1, _⟩ =>
      show (scat2 N C n wf).start (ix2 e c) idx (1 : Fin 2) + ((scat2 N C n wf).window (ix2 e c) (1 : Fin 2) : ℤ) = (c.val : ℤ)
      rw [hst1, hw1]; simp

/-- a scatter-add of rows into a matrix, read at (i, j): the operand's entry plus the sum over the update rows e whose index word, read signed, is i, of the update's entry (e, j) -/
theorem scatterAdd2_apply {N C n w : Nat} (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w) (upd : (⟨2, ![n, C]⟩ : Shape).Idx → EReal) (i : Fin N) (j : Fin C) :
    Host.scatterAdd (F := Ideal) (φ := .f32) (scat2 N C n wf) x idx upd (ix2 i j)
      = x (ix2 i j) + ∑ e : Fin n, if (idx (ix2 e (0 : Fin 1))).toInt = (i.val : ℤ) then upd (ix2 e j) else 0 := by
  show x (ix2 i j) + ∑ k ∈ Finset.univ.filter (fun k => (scat2 N C n wf).resultIdx? k idx = some (ix2 i j)), upd k = _
  congr 1
  rw [Finset.sum_filter, sum_idx2]
  refine Finset.sum_congr rfl fun e _ => ?_
  simp only [scat2_lands_iff]
  by_cases hA : (idx (ix2 e (0 : Fin 1))).toInt = (i.val : ℤ)
  · simp only [hA, true_and, if_true]
    rw [Finset.sum_ite_eq' Finset.univ j (fun c => upd (ix2 e c))]
    simp
  · simp only [hA, false_and, if_false, Finset.sum_const_zero]

/-! ## A gather of rows of a matrix -/

/-- The dimension numbers of a gather of rows of a matrix [N, C] at row indices [n, 1], result [n, C]: the result's axis 1
    is the offset axis, the operand's axis 0 is collapsed and is the one the index names; a slice is one row. -/
abbrev gath2 (N C n : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- a gather of rows of a matrix, read at (e, j): the operand at (the index word of row e, read signed and clamped into [0, N-1]; j) -/
theorem gather2_apply {α : Type} {N C n w : Nat} (hN : 0 < N) (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (e : Fin n) (j : Fin C) :
    Host.gather (gath2 N C n wf) x idx (ix2 e j) = x (ix2 ⟨min (idx (ix2 e (0 : Fin 1))).toInt.toNat (N - 1), by omega⟩ j) := by
  unfold Host.gather
  congr 1
  funext a
  refine Fin.ext ?_
  match a with
  | ⟨0, _⟩ =>
    show (gath2 N C n wf).start (ix2 e j) idx (0 : Fin 2) + (gath2 N C n wf).batchCoord (ix2 e j) (0 : Fin 2)
      + (gath2 N C n wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N C n wf).startIndexMap from List.mem_singleton.mpr rfl)]
    have hsi : (gath2 N C n wf).siIdx (ix2 e j) ⟨List.idxOf (0 : Fin 2) (gath2 N C n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N C n wf).start (ix2 e j) idx (1 : Fin 2) + (gath2 N C n wf).batchCoord (ix2 e j) (1 : Fin 2)
      + (gath2 N C n wf).offCoord (ix2 e j) (1 : Fin 2) = j.val
    rw [GatherDims.batchCoord_eq_zero _ _ _ List.not_mem_nil]
    have hs : (gath2 N C n wf).start (ix2 e j) idx (1 : Fin 2) = 0 := by
      unfold GatherDims.start
      rw [dif_neg (show (1 : Fin 2) ∉ (gath2 N C n wf).startIndexMap from (fun h => absurd (congrArg Fin.val (List.mem_singleton.mp h)) Nat.one_ne_zero))]
    have ho : (gath2 N C n wf).offCoord (ix2 e j) (1 : Fin 2) = j.val := by
      unfold GatherDims.offCoord
      rw [dif_pos (show (1 : Fin 2) ∈ (gath2 N C n wf).sKept from (GatherDims.mem_sKept _ _).mpr ⟨(fun h => absurd (congrArg Fin.val (List.mem_singleton.mp h)) Nat.one_ne_zero), List.not_mem_nil⟩)]
      rfl
    rw [hs, ho]; omega

/-! ## A scatter-add of entries into a flat array -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of entries, updates [n], into a flat array [N] at indices [n, 1]: no window axis,
    the operand's one axis is inserted and is the one the index names. -/
abbrev scat1 (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- Update entry e lands at i exactly when its index word, read signed, is i. -/
theorem scat1_lands_iff {N n w : Nat} (wf : ScatterDims.WF ⟨1, ![N]⟩ ⟨2, ![n, 1]⟩ ⟨1, ![n]⟩ [] [0] [0] 1)
    (idx : IVec ⟨2, ![n, 1]⟩ w) (e : Fin n) (i : Fin N) :
    (scat1 N n wf).resultIdx? (ix1 e) idx = some (ix1 i) ↔ (idx (ix2 e (0 : Fin 1))).toInt = (i.val : ℤ) := by
  have hst0 : (scat1 N n wf).start (ix1 e) idx (0 : Fin 1) = (idx (ix2 e (0 : Fin 1))).toInt := by
    unfold ScatterDims.start
    rw [dif_pos (show (0 : Fin 1) ∈ (scat1 N n wf).scatterDimsToOperandDims from List.mem_singleton.mpr rfl)]
    have hsi : (scat1 N n wf).siIdx (ix1 e) ⟨List.idxOf (0 : Fin 1) (scat1 N n wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scat1 N n wf).window (ix1 e) (0 : Fin 1) = 0 := by
    unfold ScatterDims.window
    rw [dif_neg (show (0 : Fin 1) ∉ (scat1 N n wf).sKept from fun h => (mem_kept _ _).mp h (List.mem_singleton.mpr rfl))]
  rw [resultIdx?_eq_some_iff]
  constructor
  · intro H
    have h0 := H (0 : Fin 1)
    rw [hst0, hw0] at h0
    have : ((ix1 i (0 : Fin 1)).val : ℤ) = (i.val : ℤ) := rfl
    rw [this] at h0
    simpa using h0
  · intro hA a
    obtain rfl : a = (0 : Fin 1) := Subsingleton.elim _ _
    show (scat1 N n wf).start (ix1 e) idx (0 : Fin 1) + ((scat1 N n wf).window (ix1 e) (0 : Fin 1) : ℤ) = (i.val : ℤ)
    rw [hst0, hw0, hA]; simp

/-- a row scatter-add into a flat array, read at entry i: the operand's entry plus the sum of the updates whose index word, read signed, is i -/
theorem scatterAdd1_apply {N n w : Nat} (wf : ScatterDims.WF ⟨1, ![N]⟩ ⟨2, ![n, 1]⟩ ⟨1, ![n]⟩ [] [0] [0] 1)
    (x : (⟨1, ![N]⟩ : Shape).Idx → EReal) (idx : IVec ⟨2, ![n, 1]⟩ w) (upd : (⟨1, ![n]⟩ : Shape).Idx → EReal) (i : Fin N) :
    Host.scatterAdd (F := Ideal) (φ := .f32) (scat1 N n wf) x idx upd (ix1 i)
      = x (ix1 i) + ∑ e : Fin n, if (idx (ix2 e (0 : Fin 1))).toInt = (i.val : ℤ) then upd (ix1 e) else 0 := by
  show x (ix1 i) + ∑ k ∈ Finset.univ.filter (fun k => (scat1 N n wf).resultIdx? k idx = some (ix1 i)), upd k = _
  congr 1
  rw [Finset.sum_filter, sum_idx1]
  refine Finset.sum_congr rfl fun e _ => ?_
  simp only [scat1_lands_iff]

/-! ## A gather of entries of a flat array -/

/-- The dimension numbers of a gather of entries of a flat array [N] at indices [n, 1], result [n]: no offset axis, the
    operand's one axis is collapsed and is the one the index names; a slice is one entry. -/
abbrev gath1 (N n : Nat) (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- a gather of entries of a flat array, read at e: the operand at the index word of row e, read signed and clamped into [0, N-1] -/
theorem gather1_apply {α : Type} {N n w : Nat} (hN : 0 < N) (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (e : Fin n) :
    Host.gather (gath1 N n wf) x idx (ix1 e) = x (ix1 ⟨min (idx (ix2 e (0 : Fin 1))).toInt.toNat (N - 1), by omega⟩) := by
  unfold Host.gather
  congr 1
  funext a
  obtain rfl : a = (0 : Fin 1) := Subsingleton.elim _ _
  refine Fin.ext ?_
  show (gath1 N n wf).start (ix1 e) idx (0 : Fin 1) + (gath1 N n wf).batchCoord (ix1 e) (0 : Fin 1)
    + (gath1 N n wf).offCoord (ix1 e) (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N n wf).startIndexMap from List.mem_singleton.mpr rfl)]
  have hsi : (gath1 N n wf).siIdx (ix1 e) ⟨List.idxOf (0 : Fin 1) (gath1 N n wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowOps

end
-- ==== Proof.KernelReads.lean ====
/- The two segment sums of the kernel's host side, read at an index on the extended reals.
   The degree of row i: ones scatter-added at the edges' target words into zeros, plus one — the number of edges whose
   target word, read signed, is i (as a sum of ones), plus one.
   The aggregate at (r, j): the rows of a matrix gathered at the edges' wrapped and clamped source words, then
   scatter-added at the target words into zeros — the sum, over the edges whose target word is r, of the matrix's
   entry (source row, j). -/
import proofs.«128256_j82669530513964_2_alg».proof.Proof.Gen.KernelIdeal
import proofs.«128256_j82669530513964_2_alg».proof.Proof.Terms
import proofs.«128256_j82669530513964_2_alg».proof.Proof.LibRowOps
import Idealize.ShloMosaic.Lib.Pipeline.Value
import Idealize.ShloMosaic.Lib.ValueIdx

noncomputable section

open scoped BigOperators

namespace Cert.KernelIdeal.ReadValue

open Cert.KernelIdeal Cert.KernelIdeal.Gen Idealize.ShloMosaic Idealize.ShloMosaic.ValueIdx
open Cert.Lib.RowOps

/-! ## Constants and index columns at an index -/

/-- A float constant spread over a flat array reads the constant everywhere. -/
theorem splat1_apply {n : Nat} (h : S_.BroadcastsInDim (⟨1, ![n]⟩ : Shape) (![] : Fin 0 → Fin (⟨1, ![n]⟩ : Shape).rank))
    (b : BitVec FTy.f32.bits) (i : (⟨1, ![n]⟩ : Shape).Idx) :
    broadcastInDim (⟨1, ![n]⟩ : Shape) ![] h (constant (F := Ideal) S_ .f32 b) i = Ideal.ofBits .f32 b :=
  broadcastInDim_apply _ h _ i ix0 (fun a => a.elim0)

/-- A float constant spread over a matrix reads the constant everywhere. -/
theorem splat2_apply {a c : Nat} (h : S_.BroadcastsInDim (⟨2, ![a, c]⟩ : Shape) (![] : Fin 0 → Fin (⟨2, ![a, c]⟩ : Shape).rank))
    (b : BitVec FTy.f32.bits) (i : (⟨2, ![a, c]⟩ : Shape).Idx) :
    broadcastInDim (⟨2, ![a, c]⟩ : Shape) ![] h (constant (F := Ideal) S_ .f32 b) i = Ideal.ofBits .f32 b :=
  broadcastInDim_apply _ h _ i ix0 (fun a => a.elim0)

/-- An integer constant spread over the edges reads the constant everywhere. -/
theorem splatI_apply (b : BitVec 32) (i : S600000.Idx) :
    broadcastInDim S600000 ![] bcast_S_S600000 (constantI S_ 32 b) i = b :=
  broadcastInDim_apply _ bcast_S_S600000 _ i ix0 (fun a => a.elim0)

/-- A flat array of words laid out as one column reads, at (e, 0), the word of edge e. -/
theorem col_apply (w : IVec S600000 32) (e : Fin 600000) :
    broadcastInDim S600000x1 ![0] bcast_S600000_S600000x1_0 w (ix2 e (0 : Fin 1)) = w (ix1 e) :=
  broadcastInDim_apply _ bcast_S600000_S600000x1_0 w (ix2 e (0 : Fin 1)) (ix1 e) (fun a => match a with
    | ⟨0, _⟩ => by show e.val = if (600000 : Nat) = 1 then 0 else e.val; rw [if_neg (by decide)])

/-! ## The degree -/

/-- Ones scatter-added at the target words into zeros, plus one, at row i: zero plus a one for every edge whose target
    word, read signed, is i, plus one. -/
theorem deg_apply (dst : IVec S600000 32) (i : Fin 200000) :
    addf (Host.scatterAdd (F := Ideal) scatter_S200000_S600000x1_S600000_n_0_0_1
        (broadcastInDim S200000 ![] bcast_S_S200000 (constant (F := Ideal) S_ .f32 0x00000000#32))
        (broadcastInDim S600000x1 ![0] bcast_S600000_S600000x1_0 dst)
        (broadcastInDim S600000 ![] bcast_S_S600000 (constant (F := Ideal) S_ .f32 0x3F800000#32)))
      (broadcastInDim S200000 ![] bcast_S_S200000 (constant (F := Ideal) S_ .f32 0x3F800000#32)) (ix1 i)
    = (Cert.Gcn.zero + ∑ e : Fin 600000, if (dst (ix1 e)).toInt = (i.val : ℤ) then Cert.Gcn.one else 0) + Cert.Gcn.one := by
  rw [addf_apply, splat1_apply]
  refine congrArg (· + Cert.Gcn.one) ?_
  refine (scatterAdd1_apply scatter_S200000_S600000x1_S600000_n_0_0_1_wf _ _ _ i).trans ?_
  rw [splat1_apply]
  refine congrArg (Cert.Gcn.zero + ·) (Finset.sum_congr rfl fun e _ => ?_)
  rw [col_apply, splat1_apply]
  rfl

/-! ## The aggregate -/

/-- The rows of `hp` gathered at the wrapped source words and scatter-added at the target words into zeros, at (r, j):
    zero plus, for every edge whose target word, read signed, is r, the entry (source row, j) of `hp`. -/
theorem agg_apply (src dst : IVec S600000 32) (hp : FVec Ideal S200000x128 .f32) (r : Fin 200000) (j : Fin 128) :
    Host.scatterAdd (F := Ideal) scatter_S200000x128_S600000x1_S600000x128_1_0_0_1
      (broadcastInDim S200000x128 ![] bcast_S_S200000x128 (constant (F := Ideal) S_ .f32 0x00000000#32))
      (broadcastInDim S600000x1 ![0] bcast_S600000_S600000x1_0 dst)
      (Host.gather gather_S200000x128_S600000x1_S600000x128_1_0_n_n_0_1_1128 hp
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 200000#32))) src))) (ix2 r j)
    = Cert.Gcn.zero + ∑ e : Fin 600000,
        if (dst (ix1 e)).toInt = (r.val : ℤ) then hp (ix2 (Cert.Gcn.rowOf (src (ix1 e))) j) else 0 := by
  refine (scatterAdd2_apply scatter_S200000x128_S600000x1_S600000x128_1_0_0_1_wf _ _ _ r j).trans ?_
  rw [splat2_apply]
  refine congrArg (Cert.Gcn.zero + ·) (Finset.sum_congr rfl fun e _ => ?_)
  rw [col_apply]
  refine if_congr Iff.rfl ?_ rfl
  refine (gather2_apply (by decide) gather_S200000x128_S600000x1_S600000x128_1_0_n_n_0_1_1128_wf hp _ e j).trans ?_
  refine congrArg (fun k : Fin 200000 => hp (ix2 k j)) (Fin.ext ?_)
  refine congrArg (fun w : BitVec 32 => min w.toInt.toNat (200000 - 1)) ?_
  rw [col_apply]
  rfl

end Cert.KernelIdeal.ReadValue

end
-- ==== Proof.KernelHost.lean ====
/-
  The kernel's host side, read at the ideal instance.
  The edge array's two rows are the source words and the target words. The degree of a row is the number of edges
  into it (a scatter-add of ones at the target words into zeros) plus one; the row's factor is the inverse square root
  of its degree where the degree is positive, else zero; the factor is laid out as a column. Between the two regions,
  the rows of the first region's result are gathered at the wrapped source words and scatter-added at the target words
  into zeros: the aggregate. Each of these arrays is named as a function of the arrays it is computed from, is read
  off the fold of host operations buffer by buffer, and is then read at an index.
-/
import proofs.«128256_j82669530513964_2_alg».proof.Proof.Gen.KernelIdeal.Frame
import proofs.«128256_j82669530513964_2_alg».proof.Proof.Terms
import proofs.«128256_j82669530513964_2_alg».proof.Proof.LibRowOps
import proofs.«128256_j82669530513964_2_alg».proof.Proof.KernelReads
import Idealize.ShloMosaic.Lib.StableHlo.Run
import Idealize.ShloMosaic.Lib.Pipeline.Value
import Idealize.ShloMosaic.Lib.ValueIdx

noncomputable section

open scoped BigOperators

namespace Cert.KernelIdeal.HostValue

open Cert.KernelIdeal Cert.KernelIdeal.Gen Idealize.ShloMosaic Idealize.ShloMosaic.ValueIdx Idealize.SL.Sem
open Idealize.ShloMosaic.TcCoe
open Idealize.ShloMosaic.StableHlo (after_cons after_nil)

/-! ## The arrays, each as a function of the arrays it is computed from -/

/-- The source words: row 0 of the edge array, as a flat array. -/
def srcArr (ei : (⟨S2x600000, .i32⟩ : BufTy).Contents (Elt Ideal)) : (⟨S600000, .i32⟩ : BufTy).Contents (Elt Ideal) :=
  shapeCast S600000 (extractStridedSlice S1x600000 ![0, 0] ei slices_S2x600000_S1x600000_0_0) shapeCasts_S1x600000_S600000

/-- The target words: row 1 of the edge array, as a flat array. -/
def dstArr (ei : (⟨S2x600000, .i32⟩ : BufTy).Contents (Elt Ideal)) : (⟨S600000, .i32⟩ : BufTy).Contents (Elt Ideal) :=
  shapeCast S600000 (extractStridedSlice S1x600000 ![1, 0] ei slices_S2x600000_S1x600000_1_0) shapeCasts_S1x600000_S600000

/-- The zero array and the array of ones over the rows, and the ones over the edges. -/
def zeroRows : FVec Ideal S200000 .f32 := broadcastInDim S200000 ![] bcast_S_S200000 (constant (F := Ideal) S_ .f32 0x00000000#32)
def oneRows : FVec Ideal S200000 .f32 := broadcastInDim S200000 ![] bcast_S_S200000 (constant (F := Ideal) S_ .f32 0x3F800000#32)
def oneEdges : FVec Ideal S600000 .f32 := broadcastInDim S600000 ![] bcast_S_S600000 (constant (F := Ideal) S_ .f32 0x3F800000#32)

/-- A flat array of words as a one-column array (the form a scatter or a gather takes its indices in). -/
def asCol (w : IVec S600000 32) : IVec S600000x1 32 := broadcastInDim S600000x1 ![0] bcast_S600000_S600000x1_0 w

/-- The degrees: ones scatter-added at the target words into zeros, plus one. -/
def degArr (ei : (⟨S2x600000, .i32⟩ : BufTy).Contents (Elt Ideal)) : FVec Ideal S200000 .f32 :=
  addf (Host.scatterAdd (F := Ideal) scatter_S200000_S600000x1_S600000_n_0_0_1 zeroRows (asCol (dstArr ei)) oneEdges) oneRows

/-- The factors: the inverse square root of the degree (at least one) where the degree is positive, else zero. -/
def disArr (ei : (⟨S2x600000, .i32⟩ : BufTy).Contents (Elt Ideal)) : FVec Ideal S200000 .f32 :=
  select (cmpf .ogt (degArr ei) zeroRows) (Host.rsqrt (F := Ideal) (maximumf (degArr ei) oneRows)) zeroRows

/-- The factors as a column. -/
def colArr (ei : (⟨S2x600000, .i32⟩ : BufTy).Contents (Elt Ideal)) : FVec Ideal S200000x1 .f32 :=
  shapeCast S200000x1 (disArr ei) shapeCasts_S200000_S200000x1

/-- The wrapped words: a negative word has the number of rows added. -/
def wrapArr (w : IVec S600000 32) : IVec S600000 32 :=
  select (cmpi .slt w (broadcastInDim S600000 ![] bcast_S_S600000 (constantI S_ 32 0#32)))
    (addi w (broadcastInDim S600000 ![] bcast_S_S600000 (constantI S_ 32 200000#32))) w

/-- The aggregate: the rows of `hp` gathered at the wrapped source words, scatter-added at the target words into zeros. -/
def aggOf (src dst : IVec S600000 32) (hp : FVec Ideal S200000x128 .f32) : FVec Ideal S200000x128 .f32 :=
  Host.scatterAdd (F := Ideal) scatter_S200000x128_S600000x1_S600000x128_1_0_0_1
    (broadcastInDim S200000x128 ![] bcast_S_S200000x128 (constant (F := Ideal) S_ .f32 0x00000000#32))
    (asCol dst)
    (Host.gather gather_S200000x128_S600000x1_S600000x128_1_0_n_n_0_1_1128 hp (asCol (wrapArr src)))

/-- The bias as a one-row array. -/
def biasRow (b : FVec Ideal S128 .f32) : FVec Ideal S1x128 .f32 := shapeCast S1x128 b shapeCasts_S128_S1x128

/-! ## The fold of host operations, read one buffer at a time -/

section Folds
variable (m : (ℓ : Loc nD τ sig) → Buf (Elt Ideal) ℓ) (ρ : Dev nD → PrngReg) (c : Dev nD)

/-- At the first region's entry the source words' buffer holds row 0 of the edge array. -/
theorem W3_main_v1 :
    (W3 (F := Ideal) m ρ c (Proc.devRef .tc main_v1) : (⟨S600000, .i32⟩ : BufTy).Contents (Elt Ideal))
      = srcArr (m ((c.tc : Thread nD τ).loc main_arg1)) := by
  dsimp only [W3, W2, W1, hostOps0, hostOps0_1, hostOps0_2]
  after_results
  rfl

/-- … and the target words' buffer row 1. -/
theorem W3_main_v3 :
    (W3 (F := Ideal) m ρ c (Proc.devRef .tc main_v3) : (⟨S600000, .i32⟩ : BufTy).Contents (Elt Ideal))
      = dstArr (m ((c.tc : Thread nD τ).loc main_arg1)) := by
  dsimp only [W3, W2, W1, hostOps0, hostOps0_1, hostOps0_2]
  after_results
  rfl

/-- After the first stretch: the comparison's, the inverse square root's and the zero constant's buffers. -/
theorem W1_main_v11 :
    (W1 (F := Ideal) m ρ c (Proc.devRef .tc main_v11) : (⟨S200000, .i1⟩ : BufTy).Contents (Elt Ideal))
      = cmpf .ogt (degArr (m ((c.tc : Thread nD τ).loc main_arg1))) zeroRows := by
  dsimp only [W1, hostOps0]
  after_results
  rfl
theorem W1_main_v14 :
    (W1 (F := Ideal) m ρ c (Proc.devRef .tc main_v14) : (⟨S200000, .f32⟩ : BufTy).Contents (Elt Ideal))
      = Host.rsqrt (F := Ideal) (maximumf (degArr (m ((c.tc : Thread nD τ).loc main_arg1))) oneRows) := by
  dsimp only [W1, hostOps0]
  after_results
  rfl
theorem W1_main_cst_4 :
    (W1 (F := Ideal) m ρ c (Proc.devRef .tc main_cst_4) : (⟨S_, .f32⟩ : BufTy).Contents (Elt Ideal))
      = constant (F := Ideal) S_ .f32 0x00000000#32 := by
  dsimp only [W1, hostOps0]
  after_results

/-- The outlined selection, over any contents: its result is the selection of its three operands' contents. -/
theorem where_read (V : Valuation τ sig (Elt Ideal)) :
    (StableHlo.after hostOps0_1 V (Proc.devRef .tc main_v15) : (⟨S200000, .f32⟩ : BufTy).Contents (Elt Ideal))
      = select (V (Proc.devRef .tc main_v11) : (⟨S200000, .i1⟩ : BufTy).Contents (Elt Ideal))
          (V (Proc.devRef .tc main_v14) : (⟨S200000, .f32⟩ : BufTy).Contents (Elt Ideal))
          (broadcastInDim S200000 ![] bcast_S_S200000 (V (Proc.devRef .tc main_cst_4) : (⟨S_, .f32⟩ : BufTy).Contents (Elt Ideal))) := by
  dsimp only [hostOps0_1]
  after_results
  rfl

/-- The reshape to a column, over any contents. -/
theorem column_read (V : Valuation τ sig (Elt Ideal)) :
    (StableHlo.after hostOps0_2 V (Proc.devRef .tc main_v16) : (⟨S200000x1, .f32⟩ : BufTy).Contents (Elt Ideal))
      = shapeCast S200000x1 (V (Proc.devRef .tc main_v15) : (⟨S200000, .f32⟩ : BufTy).Contents (Elt Ideal)) shapeCasts_S200000_S200000x1 := by
  dsimp only [hostOps0_2]
  after_results
  rfl

/-- After the outlined selection the factors' buffer holds the factors of the edge array. -/
theorem W2_main_v15 :
    (W2 (F := Ideal) m ρ c (Proc.devRef .tc main_v15) : (⟨S200000, .f32⟩ : BufTy).Contents (Elt Ideal))
      = disArr (m ((c.tc : Thread nD τ).loc main_arg1)) := by
  refine (where_read (W1 (F := Ideal) m ρ c)).trans ?_
  rw [W1_main_v11, W1_main_v14, W1_main_cst_4]
  rfl

/-- … and the column buffer the factors of the edge array. -/
theorem W3_main_v16 :
    (W3 (F := Ideal) m ρ c (Proc.devRef .tc main_v16) : (⟨S200000x1, .f32⟩ : BufTy).Contents (Elt Ideal))
      = colArr (m ((c.tc : Thread nD τ).loc main_arg1)) := by
  refine (column_read (W2 (F := Ideal) m ρ c)).trans ?_
  rw [W2_main_v15]
  rfl

/-- The arguments are as launched. -/
theorem W3_main_arg0 : W3 (F := Ideal) m ρ c (Proc.devRef .tc main_arg0) = m ((c.tc : Thread nD τ).loc main_arg0) := by
  dsimp only [W3, W2, W1, hostOps0, hostOps0_1, hostOps0_2]
  after_results
theorem W3_main_arg2 : W3 (F := Ideal) m ρ c (Proc.devRef .tc main_arg2) = m ((c.tc : Thread nD τ).loc main_arg2) := by
  dsimp only [W3, W2, W1, hostOps0, hostOps0_1, hostOps0_2]
  after_results
theorem W3_main_arg3 : W3 (F := Ideal) m ρ c (Proc.devRef .tc main_arg3) = m ((c.tc : Thread nD τ).loc main_arg3) := by
  dsimp only [W3, W2, W1, hostOps0, hostOps0_1, hostOps0_2]
  after_results

/-- Across the first region only its result array changes. -/
theorem W4_main_v1 :
    (W4 (F := Ideal) m ρ c (Proc.devRef .tc main_v1) : (⟨S600000, .i32⟩ : BufTy).Contents (Elt Ideal))
      = srcArr (m ((c.tc : Thread nD τ).loc main_arg1)) :=
  (W4_of_ne m ρ c main_v1 (by decide)).trans (W3_main_v1 m ρ c)
theorem W4_main_v3 :
    (W4 (F := Ideal) m ρ c (Proc.devRef .tc main_v3) : (⟨S600000, .i32⟩ : BufTy).Contents (Elt Ideal))
      = dstArr (m ((c.tc : Thread nD τ).loc main_arg1)) :=
  (W4_of_ne m ρ c main_v3 (by decide)).trans (W3_main_v3 m ρ c)
theorem W4_main_v16 :
    (W4 (F := Ideal) m ρ c (Proc.devRef .tc main_v16) : (⟨S200000x1, .f32⟩ : BufTy).Contents (Elt Ideal))
      = colArr (m ((c.tc : Thread nD τ).loc main_arg1)) :=
  ((W4_arr m ρ c 2).trans (((dat0 (V3 m ρ) c).arrAt_in 2 rfl _).trans (A_eq0 (V3 m ρ) c 2))).trans (W3_main_v16 m ρ c)
theorem W4_main_arg3 : W4 (F := Ideal) m ρ c (Proc.devRef .tc main_arg3) = m ((c.tc : Thread nD τ).loc main_arg3) :=
  (W4_of_ne m ρ c main_arg3 (by decide)).trans (W3_main_arg3 m ρ c)

/-- The first region's result array holds what its write-backs leave. -/
theorem W4_main_v17 :
    W4 (F := Ideal) m ρ c (Proc.devRef .tc main_v17) = (dat0 (V3 m ρ) c).arrAt 3 cfg0.N := W4_arr m ρ c 3

/-- At the second region's entry: the aggregate's buffer. -/
theorem W5_main_v27 :
    (W5 (F := Ideal) m ρ c (Proc.devRef .tc main_v27) : (⟨S200000x128, .f32⟩ : BufTy).Contents (Elt Ideal))
      = aggOf (W4 (F := Ideal) m ρ c (Proc.devRef .tc main_v1)) (W4 (F := Ideal) m ρ c (Proc.devRef .tc main_v3))
          (W4 (F := Ideal) m ρ c (Proc.devRef .tc main_v17)) := by
  dsimp only [W5, hostOps1]
  after_results
  rfl

/-- … the bias row's buffer. -/
theorem W5_main_v28 :
    (W5 (F := Ideal) m ρ c (Proc.devRef .tc main_v28) : (⟨S1x128, .f32⟩ : BufTy).Contents (Elt Ideal))
      = biasRow (W4 (F := Ideal) m ρ c (Proc.devRef .tc main_arg3)) := by
  dsimp only [W5, hostOps1]
  after_results
  rfl

/-- … the first region's result and the column are as the first region left them. -/
theorem W5_main_v17 :
    W5 (F := Ideal) m ρ c (Proc.devRef .tc main_v17) = W4 (F := Ideal) m ρ c (Proc.devRef .tc main_v17) := by
  dsimp only [W5, hostOps1]
  after_results
theorem W5_main_v16 :
    W5 (F := Ideal) m ρ c (Proc.devRef .tc main_v16) = W4 (F := Ideal) m ρ c (Proc.devRef .tc main_v16) := by
  dsimp only [W5, hostOps1]
  after_results

end Folds

/-! ## The arrays read at an index -/

section Reads

theorem srcArr_apply (ei : (⟨S2x600000, .i32⟩ : BufTy).Contents (Elt Ideal)) (e : Fin 600000) :
    srcArr ei (ix1 e) = Cert.Gcn.srcW ei e := by
  unfold srcArr Cert.Gcn.srcW
  refine (shapeCast_apply _ shapeCasts_S1x600000_S600000 (ix1 e) (ix2 (0 : Fin 1) e) ?_).trans ?_
  · rewrite [Shape.rowMajor_val_two, Shape.rowMajor_val_one]
    show 0 * 600000 + e.val = e.val
    omega
  · exact extractStridedSlice_apply ![0, 0] ei slices_S2x600000_S1x600000_0_0 (ix2 (0 : Fin 1) e) (ix2 (0 : Fin 2) e)
      (fun a => match a with
        | ⟨0, _⟩ => by show (0 : Nat) = 0 + 0; rfl
        | ⟨1, _⟩ => by show e.val = 0 + e.val; omega)

theorem dstArr_apply (ei : (⟨S2x600000, .i32⟩ : BufTy).Contents (Elt Ideal)) (e : Fin 600000) :
    dstArr ei (ix1 e) = Cert.Gcn.dstW ei e := by
  unfold dstArr Cert.Gcn.dstW
  refine (shapeCast_apply _ shapeCasts_S1x600000_S600000 (ix1 e) (ix2 (0 : Fin 1) e) ?_).trans ?_
  · rewrite [Shape.rowMajor_val_two, Shape.rowMajor_val_one]
    show 0 * 600000 + e.val = e.val
    omega
  · exact extractStridedSlice_apply ![1, 0] ei slices_S2x600000_S1x600000_1_0 (ix2 (0 : Fin 1) e) (ix2 (1 : Fin 2) e)
      (fun a => match a with
        | ⟨0, _⟩ => by show (1 : Nat) = 1 + 0; rfl
        | ⟨1, _⟩ => by show e.val = 0 + e.val; omega)

theorem zeroRows_apply (i : S200000.Idx) : zeroRows i = Cert.Gcn.zero := by
  unfold zeroRows
  exact broadcastInDim_apply _ bcast_S_S200000 (constant (F := Ideal) S_ .f32 0x00000000#32) i ix0 (fun a => a.elim0)

theorem oneRows_apply (i : S200000.Idx) : oneRows i = Cert.Gcn.one := by
  unfold oneRows
  exact broadcastInDim_apply _ bcast_S_S200000 (constant (F := Ideal) S_ .f32 0x3F800000#32) i ix0 (fun a => a.elim0)

theorem oneEdges_apply (i : S600000.Idx) : oneEdges i = Cert.Gcn.one := by
  unfold oneEdges
  exact broadcastInDim_apply _ bcast_S_S600000 (constant (F := Ideal) S_ .f32 0x3F800000#32) i ix0 (fun a => a.elim0)

theorem asCol_apply (w : IVec S600000 32) (e : Fin 600000) : asCol w (ix2 e (0 : Fin 1)) = w (ix1 e) := by
  unfold asCol
  exact broadcastInDim_apply _ bcast_S600000_S600000x1_0 w (ix2 e (0 : Fin 1)) (ix1 e) (fun a => match a with
    | ⟨0, _⟩ => by show e.val = if (600000 : Nat) = 1 then 0 else e.val; rw [if_neg (by decide)])

/-- The selection of the inverse square root where the comparison holds, read at an index: every operation is pointwise. -/
theorem factor_apply (d z o : FVec Ideal S200000 .f32) (i : Fin 200000) :
    select (cmpf .ogt d z) (Host.rsqrt (F := Ideal) (maximumf d o)) z (ix1 i)
      = Scalar.select (Ideal.cmp .ogt (d (ix1 i)) (z (ix1 i))) (Ideal.rsqrt (max (d (ix1 i)) (o (ix1 i)))) (z (ix1 i)) := rfl

/-- The factor of a row is the factor of its degree. -/
theorem disArr_apply (ei : (⟨S2x600000, .i32⟩ : BufTy).Contents (Elt Ideal)) (i : Fin 200000) :
    disArr ei (ix1 i) = Cert.Gcn.disOf (degArr ei (ix1 i)) := by
  unfold disArr Cert.Gcn.disOf
  rw [factor_apply, zeroRows_apply, oneRows_apply]

/-- The column's entry (r, 0) is the factor of row r. -/
theorem colArr_apply (ei : (⟨S2x600000, .i32⟩ : BufTy).Contents (Elt Ideal)) (r : Fin 200000) :
    colArr ei (ix2 r (0 : Fin 1)) = disArr ei (ix1 r) := by
  unfold colArr
  exact shapeCast_apply (disArr ei) shapeCasts_S200000_S200000x1 (ix2 r (0 : Fin 1)) (ix1 r)
    (by rewrite [Shape.rowMajor_val_two, Shape.rowMajor_val_one]; show r.val = r.val * 1 + 0; omega)

/-- The bias row's entry (0, j) is the bias's entry j. -/
theorem biasRow_apply (b : FVec Ideal S128 .f32) (j : Fin 128) : biasRow b (ix2 (0 : Fin 1) j) = b (ix1 j) := by
  unfold biasRow
  exact shapeCast_apply b shapeCasts_S128_S1x128 (ix2 (0 : Fin 1) j) (ix1 j)
    (by rewrite [Shape.rowMajor_val_two, Shape.rowMajor_val_one]; show j.val = 0 * 128 + j.val; omega)

/-- The degree of a row: zero plus the ones of the edges into it, plus one. -/
theorem degArr_apply (ei : (⟨S2x600000, .i32⟩ : BufTy).Contents (Elt Ideal)) (i : Fin 200000) :
    degArr ei (ix1 i) = Cert.Gcn.degK ei i := by
  unfold degArr zeroRows oneEdges oneRows asCol
  refine (Cert.KernelIdeal.ReadValue.deg_apply (dstArr ei) i).trans ?_
  unfold Cert.Gcn.degK Cert.Gcn.cnt
  simp only [dstArr_apply]

/-- The aggregate at (r, j): zero plus, over the edges into row r, the gathered row's entry j. -/
theorem aggOf_apply (src dst : IVec S600000 32) (hp : FVec Ideal S200000x128 .f32) (r : Fin 200000) (j : Fin 128) :
    aggOf src dst hp (ix2 r j)
      = Cert.Gcn.zero + ∑ e : Fin 600000, if (dst (ix1 e)).toInt = (r.val : ℤ)
          then hp (ix2 (Cert.Gcn.rowOf (src (ix1 e))) j) else 0 := by
  unfold aggOf asCol wrapArr
  exact Cert.KernelIdeal.ReadValue.agg_apply src dst hp r j

end Reads

/-! ## The kernel's result -/

theorem kernel_value
    (h0 : ∀ (V : (c : Dev nD) → (b : Ref sig .tc) → Buf (Elt Ideal) ((c : Thread nD τ).loc b)) (c : Dev nD),
      (Gen.dat0 (F := Ideal) V c).arrAt 3 cfg0.N = Cert.Gcn.scaled (V c main_arg0) (V c main_arg2) (V c main_v16))
    (h1 : ∀ (V : (c : Dev nD) → (b : Ref sig .tc) → Buf (Elt Ideal) ((c : Thread nD τ).loc b)) (c : Dev nD),
      (Gen.dat1 (F := Ideal) V c).arrAt 4 cfg1.N = Cert.Gcn.combined (V c main_v27) (V c main_v17) (V c main_v16) (V c main_v28))
    (m : (ℓ : Loc nD τ sig) → Buf (Elt Ideal) ℓ) (ρ : Dev nD → PrngReg) (c : Dev nD) (r : Fin 200000) (j : Fin 128) :
    Gen.W6 (F := Ideal) m ρ c (Proc.devRef .tc main_v29) (ix2 r j)
      = Cert.Gcn.Kform (m ((c.tc : Thread nD τ).loc main_arg0)) (m ((c.tc : Thread nD τ).loc main_arg1))
          (m ((c.tc : Thread nD τ).loc main_arg2)) (m ((c.tc : Thread nD τ).loc main_arg3)) r j := by
  -- the first region's result array, as the scaled projection of the arguments
  have e17 : (W4 (F := Ideal) m ρ c (Proc.devRef .tc main_v17) : (⟨S200000x128, .f32⟩ : BufTy).Contents (Elt Ideal))
      = Cert.Gcn.scaled (m ((c.tc : Thread nD τ).loc main_arg0)) (m ((c.tc : Thread nD τ).loc main_arg2))
          (colArr (m ((c.tc : Thread nD τ).loc main_arg1))) := by
    refine (W4_main_v17 m ρ c).trans ((h0 (V3 (F := Ideal) m ρ) c).trans ?_)
    rw [show V3 (F := Ideal) m ρ c main_arg0 = m ((c.tc : Thread nD τ).loc main_arg0) from W3_main_arg0 m ρ c,
      show V3 (F := Ideal) m ρ c main_arg2 = m ((c.tc : Thread nD τ).loc main_arg2) from W3_main_arg2 m ρ c,
      show (V3 (F := Ideal) m ρ c main_v16 : (⟨S200000x1, .f32⟩ : BufTy).Contents (Elt Ideal))
        = colArr (m ((c.tc : Thread nD τ).loc main_arg1)) from W3_main_v16 m ρ c]
  -- the second region's four input arrays
  have v16 : (V5 (F := Ideal) m ρ c main_v16 : (⟨S200000x1, .f32⟩ : BufTy).Contents (Elt Ideal))
      = colArr (m ((c.tc : Thread nD τ).loc main_arg1)) :=
    (W5_main_v16 m ρ c).trans (W4_main_v16 m ρ c)
  have v17 : (V5 (F := Ideal) m ρ c main_v17 : (⟨S200000x128, .f32⟩ : BufTy).Contents (Elt Ideal))
      = Cert.Gcn.scaled (m ((c.tc : Thread nD τ).loc main_arg0)) (m ((c.tc : Thread nD τ).loc main_arg2))
          (colArr (m ((c.tc : Thread nD τ).loc main_arg1))) :=
    (W5_main_v17 m ρ c).trans e17
  have v27 : (V5 (F := Ideal) m ρ c main_v27 : (⟨S200000x128, .f32⟩ : BufTy).Contents (Elt Ideal))
      = aggOf (srcArr (m ((c.tc : Thread nD τ).loc main_arg1))) (dstArr (m ((c.tc : Thread nD τ).loc main_arg1)))
          (Cert.Gcn.scaled (m ((c.tc : Thread nD τ).loc main_arg0)) (m ((c.tc : Thread nD τ).loc main_arg2))
            (colArr (m ((c.tc : Thread nD τ).loc main_arg1)))) := by
    refine (W5_main_v27 m ρ c).trans ?_
    rw [W4_main_v1, W4_main_v3, e17]
  have v28 : (V5 (F := Ideal) m ρ c main_v28 : (⟨S1x128, .f32⟩ : BufTy).Contents (Elt Ideal))
      = biasRow (m ((c.tc : Thread nD τ).loc main_arg3)) := by
    refine (W5_main_v28 m ρ c).trans ?_
    rw [W4_main_arg3]
  -- the result array is what the second region's write-backs leave: the combination of the four
  have e29 : (W6 (F := Ideal) m ρ c (Proc.devRef .tc main_v29) : (⟨S200000x128, .f32⟩ : BufTy).Contents (Elt Ideal))
      = Cert.Gcn.combined (V5 (F := Ideal) m ρ c main_v27) (V5 (F := Ideal) m ρ c main_v17)
          (V5 (F := Ideal) m ρ c main_v16) (V5 (F := Ideal) m ρ c main_v28) :=
    (W6_arr m ρ c 4).trans (h1 (V5 (F := Ideal) m ρ) c)
  rw [e29, v27, v17, v16, v28, Cert.Gcn.combined_apply]
  rw [colArr_apply, disArr_apply, degArr_apply, aggOf_apply, Cert.Gcn.scaled_apply, biasRow_apply]
  simp only [Cert.Gcn.scaled_apply, colArr_apply, disArr_apply, degArr_apply, srcArr_apply, dstArr_apply]
  rfl

end Cert.KernelIdeal.HostValue

end
-- ==== Proof.RefRead.lean ====
/-
  The reference's result read at one index (r, j).
  Its 800000 messages are the 600000 edges followed by one self-loop per row. Stage by stage: the message's source and
  target words (a concatenation of the edge words and the row numbers); the wrapped words the gathers read; the degree
  (a scatter-add of ones at the target words); the normalisation factor of a degree; the projection (a matrix product);
  the message (the source row's projection times the two factors); the sum of the messages into row r (a scatter-add of
  rows at the target words); the bias row added.
-/
import proofs.«128256_j82669530513964_2_alg».proof.Proof.RefReadP
import proofs.«128256_j82669530513964_2_alg».proof.Proof.LibRowOps
import proofs.«128256_j82669530513964_2_alg».proof.Proof.RefTerms

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Gcn Cert.Lib.RowOps

/-! ## The words of message e -/

/-- The target word of message e: the edge's target word below 600000, the self-loop's row number from there on. -/
theorem tgt_word (x1 : (⟨S2x600000, .i32⟩ : BufTy).Contents (Elt Ideal)) (e : Fin 800000) :
    val_main_v6 (F := Ideal) x1 (ix1 e) = tgtW' x1 e := by
  have he := e.isLt
  unfold val_main_v6 tgtW'
  by_cases h : e.val < 600000
  · rw [dif_pos h]
    refine (concatenate_pair_apply_left (0 : Fin S800000.rank) (val_main_v5 (F := Ideal) x1) (val_main_v0 (F := Ideal))
      concatenates_S600000_S200000_S800000_d0 (ix1 e) rfl (ix1 (⟨e.val, h⟩ : Fin 600000)) (fun b => ?_)).trans ?_
    · obtain rfl : b = (0 : Fin 1) := Subsingleton.elim _ _
      rfl
    · rw [val_main_v5_apply, val_main_v4_apply]
      unfold dstW
      congr 1
      funext a; refine Fin.ext ?_
      match a with
      | ⟨0, _⟩ => rfl
      | ⟨1, _⟩ => exact Nat.mod_eq_of_lt h
  · rw [dif_neg h]
    refine (concatenate_pair_apply_right (0 : Fin S800000.rank) (val_main_v5 (F := Ideal) x1) (val_main_v0 (F := Ideal))
      concatenates_S600000_S200000_S800000_d0 (ix1 e) rfl rfl (ix1 (⟨e.val - 600000, by omega⟩ : Fin 200000))
      (fun b hb => ?_) ?_).trans ?_
    · exact absurd (Subsingleton.elim (α := Fin 1) _ _) hb
    · show (e.val - 600000) + 600000 = e.val
      omega
    · rfl

/-- The source word of message e: the edge's source word below 600000, the self-loop's row number from there on. -/
theorem src_word (x1 : (⟨S2x600000, .i32⟩ : BufTy).Contents (Elt Ideal)) (e : Fin 800000) :
    val_main_v3 (F := Ideal) x1 (ix1 e) = srcW' x1 e := by
  have he := e.isLt
  unfold val_main_v3 srcW'
  by_cases h : e.val < 600000
  · rw [dif_pos h]
    refine (concatenate_pair_apply_left (0 : Fin S800000.rank) (val_main_v2 (F := Ideal) x1) (val_main_v0 (F := Ideal))
      concatenates_S600000_S200000_S800000_d0 (ix1 e) rfl (ix1 (⟨e.val, h⟩ : Fin 600000)) (fun b => ?_)).trans ?_
    · obtain rfl : b = (0 : Fin 1) := Subsingleton.elim _ _
      rfl
    · rw [val_main_v2_apply, val_main_v1_apply]
      unfold srcW
      congr 1
      funext a; refine Fin.ext ?_
      match a with
      | ⟨0, _⟩ => rfl
      | ⟨1, _⟩ => exact Nat.mod_eq_of_lt h
  · rw [dif_neg h]
    refine (concatenate_pair_apply_right (0 : Fin S800000.rank) (val_main_v2 (F := Ideal) x1) (val_main_v0 (F := Ideal))
      concatenates_S600000_S200000_S800000_d0 (ix1 e) rfl rfl (ix1 (⟨e.val - 600000, by omega⟩ : Fin 200000))
      (fun b hb => ?_) ?_).trans ?_
    · exact absurd (Subsingleton.elim (α := Fin 1) _ _) hb
    · show (e.val - 600000) + 600000 = e.val
      omega
    · rfl

/-- The column entry (e, 0) of an [800000, 1] index is the flat index e. -/
theorem col_idx (e : Fin 800000) : (fun a => match a with | ⟨0, _⟩ => ⟨((ix2 e (0 : Fin 1)) 0).val, ((ix2 e (0 : Fin 1)) 0).isLt⟩ :
    S800000.Idx) = ix1 e := by
  funext a; refine Fin.ext ?_
  match a with
  | ⟨0, _⟩ => rfl

/-- The word the first factor gather reads for message e: the source word, wrapped. -/
theorem word22 (x1 : (⟨S2x600000, .i32⟩ : BufTy).Contents (Elt Ideal)) (e : Fin 800000) :
    val_main_v22 (F := Ideal) x1 (ix2 e (0 : Fin 1)) = wrapW (srcW' x1 e) := by
  rw [val_main_v22_apply]
  show val_main_v21 (F := Ideal) x1 (idx_main_v22 (ix2 e (0 : Fin 1))) = _
  rw [show idx_main_v22 (ix2 e (0 : Fin 1)) = ix1 e from col_idx e]
  rw [val_main_v21_apply, val_main_v18_apply, val_main_v20_apply, val_main_v17_apply, val_main_v19_apply, src_word]
  rfl

/-- The word the second factor gather reads for message e: the target word, wrapped. -/
theorem word29 (x1 : (⟨S2x600000, .i32⟩ : BufTy).Contents (Elt Ideal)) (e : Fin 800000) :
    val_main_v29 (F := Ideal) x1 (ix2 e (0 : Fin 1)) = wrapW (tgtW' x1 e) := by
  rw [val_main_v29_apply]
  rw [show idx_main_v29 (ix2 e (0 : Fin 1)) = ix1 e from col_idx e]
  rw [val_main_v28_apply, val_main_v25_apply, val_main_v27_apply, val_main_v24_apply, val_main_v26_apply, tgt_word]
  rfl

/-- The word the row gather reads for message e: the source word, wrapped. -/
theorem word38 (x1 : (⟨S2x600000, .i32⟩ : BufTy).Contents (Elt Ideal)) (e : Fin 800000) :
    val_main_v38 (F := Ideal) x1 (ix2 e (0 : Fin 1)) = wrapW (srcW' x1 e) := by
  rw [val_main_v38_apply]
  rw [show idx_main_v38 (ix2 e (0 : Fin 1)) = ix1 e from col_idx e]
  rw [val_main_v37_apply, val_main_v34_apply, val_main_v36_apply, val_main_v33_apply, val_main_v35_apply, src_word]
  rfl

/-- The word the two scatter-adds read for message e: the target word. -/
theorem word9 (x1 : (⟨S2x600000, .i32⟩ : BufTy).Contents (Elt Ideal)) (e : Fin 800000) :
    val_main_v9 (F := Ideal) x1 (ix2 e (0 : Fin 1)) = tgtW' x1 e := by
  rw [val_main_v9_apply]
  rw [show idx_main_v9 (ix2 e (0 : Fin 1)) = ix1 e from col_idx e]
  exact tgt_word x1 e

theorem word44 (x1 : (⟨S2x600000, .i32⟩ : BufTy).Contents (Elt Ideal)) (e : Fin 800000) :
    val_main_v44 (F := Ideal) x1 (ix2 e (0 : Fin 1)) = tgtW' x1 e := by
  rw [val_main_v44_apply]
  rw [show idx_main_v44 (ix2 e (0 : Fin 1)) = ix1 e from col_idx e]
  exact tgt_word x1 e

/-! ## The degree and its factor -/

/-- The degree of row i: zero plus a one for every message whose target word, read signed, is i. -/
theorem deg_apply (x1 : (⟨S2x600000, .i32⟩ : BufTy).Contents (Elt Ideal)) (i : Fin 200000) :
    val_main_v10 (F := Ideal) x1 (ix1 i) = degR x1 i := by
  unfold val_main_v10
  refine (scatterAdd1_apply _ (val_main_v8 (F := Ideal)) (val_main_v9 (F := Ideal) x1) (val_main_v7 (F := Ideal)) i).trans ?_
  unfold degR
  refine congrArg₂ (fun a b : EReal => a + b) ?_ ?_
  · rw [val_main_v8_apply]; rfl
  · refine Finset.sum_congr rfl fun e _ => ?_
    rw [word9, val_main_v7_apply]
    rfl

/-- The factor of row i: the inverse square root of its degree (at least one) where the degree is positive, else zero. -/
theorem dis_apply (x1 : (⟨S2x600000, .i32⟩ : BufTy).Contents (Elt Ideal)) (i : Fin 200000) :
    val_main_v16 (F := Ideal) x1 (ix1 i) = disR x1 i := by
  rw [val_main_v16_apply, val_main_v12_apply, val_main_v15_apply, val_main_v14_apply, val_main_v11_apply,
    val_main_v13_apply, val_main_call0_v1_apply, deg_apply]
  unfold disR disOf
  generalize degR x1 i = d
  rfl

/-! ## The gathers at a wrapped word -/

/-- A gather of entries whose word for e is the wrapping of w reads the operand at w's row. -/
theorem gather1_row (x : S200000.Idx → EReal) (idx : IVec S800000x1 32) (e : Fin 800000) (w : BitVec 32)
    (hw : idx (ix2 e (0 : Fin 1)) = wrapW w) :
    Host.gather gather_S200000_S800000x1_S800000_n_0_n_n_0_1_1 x idx (ix1 e) = x (ix1 (rowOf w)) :=
  (gather1_apply (by decide) _ x idx e).trans
    (congrArg (fun r : Fin 200000 => x (ix1 r)) (Fin.ext (by
      show min (idx (ix2 e (0 : Fin 1))).toInt.toNat (200000 - 1) = min (wrapW w).toInt.toNat (200000 - 1)
      rw [hw])))

/-- A gather of rows whose word for e is the wrapping of w reads the operand's row of w. -/
theorem gather2_row (x : S200000x128.Idx → EReal) (idx : IVec S800000x1 32) (e : Fin 800000) (j : Fin 128) (w : BitVec 32)
    (hw : idx (ix2 e (0 : Fin 1)) = wrapW w) :
    Host.gather gather_S200000x128_S800000x1_S800000x128_1_0_n_n_0_1_1128 x idx (ix2 e j) = x (ix2 (rowOf w) j) :=
  (gather2_apply (by decide) _ x idx e j).trans
    (congrArg (fun r : Fin 200000 => x (ix2 r j)) (Fin.ext (by
      show min (idx (ix2 e (0 : Fin 1))).toInt.toNat (200000 - 1) = min (wrapW w).toInt.toNat (200000 - 1)
      rw [hw])))

/-! ## The projection and the messages -/

/-- Entry (s, j) of the matrix product: the sum over the 128 input features. -/
theorem proj_apply (x0 : (⟨S200000x128, .f32⟩ : BufTy).Contents (Elt Ideal)) (x2 : (⟨S128x128, .f32⟩ : BufTy).Contents (Elt Ideal))
    (s : Fin 200000) (j : Fin 128) : val_main_v32 (F := Ideal) x0 x2 (ix2 s j) = proj x0 x2 s j := by
  rw [val_main_v32_apply]
  unfold proj
  refine Finset.sum_congr rfl fun k _ => ?_
  have el : lidx_main_v32 (ix2 s j) k = ix2 s k := by
    funext a; refine Fin.ext ?_
    match a with
    | ⟨0, _⟩ => rfl
    | ⟨1, _⟩ => rfl
  have er : ridx_main_v32 (ix2 s j) k = ix2 k j := by
    funext a; refine Fin.ext ?_
    match a with
    | ⟨0, _⟩ => rfl
    | ⟨1, _⟩ => rfl
  rw [el, er]

/-- The product of the two factors of message e. -/
theorem fac_apply (x1 : (⟨S2x600000, .i32⟩ : BufTy).Contents (Elt Ideal)) (e : Fin 800000) :
    val_main_v31 (F := Ideal) x1 (ix1 e) = disR x1 (rowOf (srcW' x1 e)) * disR x1 (rowOf (tgtW' x1 e)) := by
  rw [val_main_v31_apply]
  show val_main_v23 (F := Ideal) x1 (ix1 e) * val_main_v30 (F := Ideal) x1 (ix1 e) = _
  unfold val_main_v23 val_main_v30
  rw [gather1_row _ _ e _ (word22 x1 e), gather1_row _ _ e _ (word29 x1 e), dis_apply, dis_apply]

/-- Message e at column j: the source row's projection times the two factors. -/
theorem msg_apply (x0 : (⟨S200000x128, .f32⟩ : BufTy).Contents (Elt Ideal)) (x1 : (⟨S2x600000, .i32⟩ : BufTy).Contents (Elt Ideal))
    (x2 : (⟨S128x128, .f32⟩ : BufTy).Contents (Elt Ideal)) (e : Fin 800000) (j : Fin 128) :
    val_main_v42 (F := Ideal) x0 x1 x2 (ix2 e j)
      = proj x0 x2 (rowOf (srcW' x1 e)) j * (disR x1 (rowOf (srcW' x1 e)) * disR x1 (rowOf (tgtW' x1 e))) := by
  rw [val_main_v42_apply]
  show val_main_v39 (F := Ideal) x0 x1 x2 (ix2 e j) * val_main_v41 (F := Ideal) x1 (ix2 e j) = _
  refine congrArg₂ (fun a b : EReal => a * b) ?_ ?_
  · unfold val_main_v39
    rw [gather2_row _ _ e j _ (word38 x1 e), proj_apply]
  · rw [val_main_v41_apply, val_main_v40_apply]
    have hi : idx_main_v40 (idx_main_v41 (ix2 e j)) = ix1 e := by
      funext a; refine Fin.ext ?_
      match a with
      | ⟨0, _⟩ => rfl
    rw [hi, fac_apply]

/-! ## The result -/

/-- THE REFERENCE AT (r, j): the sum over the messages into row r of the source row's projection times the two factors,
    plus the bias. -/
theorem ref_value (x0 : (⟨S200000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) (r : Fin 200000) (j : Fin 128) :
    Cert.ReferenceIdeal.Read.val_main_v48 (F := Ideal) x0 x1 x2 x3 (ix2 r j) = Cert.Gcn.Rform x0 x1 x2 x3 r j := by
  rw [val_main_v48_apply]
  show val_main_v45 (F := Ideal) x0 x1 x2 (ix2 r j) + val_main_v47 (F := Ideal) x3 (ix2 r j) = _
  unfold Rform
  refine congrArg₂ (fun a b : EReal => a + b) ?_ ?_
  · unfold val_main_v45
    refine (scatterAdd2_apply _ (val_main_v43 (F := Ideal)) (val_main_v44 (F := Ideal) x1)
      (val_main_v42 (F := Ideal) x0 x1 x2) r j).trans ?_
    refine congrArg₂ (fun a b : EReal => a + b) ?_ ?_
    · rw [val_main_v43_apply]; rfl
    · refine Finset.sum_congr rfl fun e _ => ?_
      rw [word44, msg_apply]
  · rw [val_main_v47_apply, val_main_v46_apply]
    refine congrArg x3 ?_
    funext a; refine Fin.ext ?_
    match a with
    | ⟨0, _⟩ => rfl

end Cert.ReferenceIdeal.RefValue

end
-- ==== Proof.Algebra.lean ====
/-
  The law that joins the two sides, on the extended reals, for real-valued data.
  The kernel multiplies the row's factor into a finished sum; the reference multiplies it into every message.
  For real numbers the two agree by distributivity; the self-loop of row r is the one term k = r of a sum over the rows.
-/
import Idealize.ShloMosaic.PureOps.Ideal

noncomputable section

open scoped BigOperators

namespace Cert.Gcn.Algebra

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the rows that keeps only row r is the term at r (any commutative monoid). -/
theorem node_sum {M : Type*} [AddCommMonoid M] {n : Nat} (r : Fin n) (g : Fin n → M) :
    (∑ k : Fin n, if ((k.val : ℤ) = (r.val : ℤ)) then g k else 0) = g r := by
  have hk : ∀ k : Fin n, ((k.val : ℤ) = (r.val : ℤ)) ↔ k = r := fun k =>
    ⟨fun h => Fin.ext (by exact_mod_cast h), fun h => by rw [h]⟩
  simp only [hk]
  rw [Finset.sum_ite_eq' Finset.univ r g, if_pos (Finset.mem_univ r)]

/-- Distributing the row's factor over the messages: for real data, the factor times (the sum over the edges into r of
    the scaled source rows, plus the row's own scaled entry) is the sum over the edges into r of the doubly scaled source
    rows plus the self-loop term, the self-loop written as the one surviving term of a sum over all rows. -/
theorem bridge {n E : Nat} (r : Fin n) (P D : Fin n → EReal) (hP : ∀ i, ∃ x : ℝ, P i = (x : EReal))
    (hD : ∀ i, ∃ x : ℝ, D i = (x : EReal)) (t : Fin E → ℤ) (s tr : Fin E → Fin n)
    (htr : ∀ e, t e = (r.val : ℤ) → tr e = r) (β : EReal) :
    D r * (((0 : EReal) + ∑ e : Fin E, if t e = (r.val : ℤ) then P (s e) * D (s e) else 0) + P r * D r) + β
      = ((0 : EReal) + ((∑ e : Fin E, if t e = (r.val : ℤ) then P (s e) * (D (s e) * D (tr e)) else 0)
          + ∑ k : Fin n, if ((k.val : ℤ) = (r.val : ℤ)) then P k * (D k * D k) else 0)) + β := by
  choose p hp using hP
  choose d hd using hD
  have e1 : ∀ e : Fin E, (if t e = (r.val : ℤ) then P (s e) * D (s e) else 0)
      = ((if t e = (r.val : ℤ) then p (s e) * d (s e) else 0 : ℝ) : EReal) := fun e => by
    rw [hp, hd, ← EReal.coe_mul]; split <;> simp
  have e2 : ∀ e : Fin E, (if t e = (r.val : ℤ) then P (s e) * (D (s e) * D (tr e)) else 0)
      = ((if t e = (r.val : ℤ) then p (s e) * (d (s e) * d r) else 0 : ℝ) : EReal) := fun e => by
    by_cases h : t e = (r.val : ℤ)
    · rw [if_pos h, if_pos h, htr e h, hp, hd, hd, ← EReal.coe_mul, ← EReal.coe_mul]
    · rw [if_neg h, if_neg h]; simp
  rw [node_sum r (fun k => P k * (D k * D k))]
  simp only [e1, e2]
  simp only [← coe_sum, hp, hd, zero_add, ← EReal.coe_mul, ← EReal.coe_add]
  congr 1
  rw [EReal.coe_eq_coe_iff, mul_add, Finset.mul_sum]
  congr 1
  · exact Finset.sum_congr rfl fun e _ => by split <;> ring
  · ring

/-- The degree: counting the self-loop as a term k = i of a sum over the rows, or adding one afterwards. -/
theorem degree {n : Nat} (i : Fin n) (z o A : EReal) :
    (z + A) + o = z + (A + ∑ k : Fin n, if ((k.val : ℤ) = (i.val : ℤ)) then o else 0) := by
  rw [node_sum i (fun _ => o), add_assoc]

end Cert.Gcn.Algebra

end
-- ==== Proof.Bridge.lean ====
/-
  The kernel's form and the reference's form are one function of finite inputs.
  The reference's 800000 messages are the 600000 edges followed by the 200000 self-loops. The self-loop words are row
  numbers below 2^31, so they read back as themselves and pick out exactly one row; an edge into row r has a nonnegative
  target word, which the wrap leaves alone and the clamp reads as r. So the two degrees are equal, the two factors are
  equal, and — every factor and every projection entry being a real number — distributing the target's factor over the
  messages turns the kernel's form into the reference's.
-/
import proofs.«128256_j82669530513964_2_alg».proof.Proof.RefTerms
import proofs.«128256_j82669530513964_2_alg».proof.Proof.Algebra

noncomputable section

open scoped BigOperators

namespace Cert.Gcn

open Idealize.ShloMosaic Idealize.ShloMosaic.ValueIdx

/-- The float word 0x3F800000 is the number one. -/
theorem one_eq : one = 1 := by
  unfold one
  simp [Ideal.ofBits, Ideal.ieee]
  rw [← EReal.coe_mul, ← EReal.coe_one]
  congr 1
  norm_num

/-- The float word 0 is the number zero. -/
theorem zero_eq : zero = 0 := by
  unfold zero
  simp [Ideal.ofBits, Ideal.ieee]

/-- A word that is nonnegative as a signed number is left alone by the wrap. -/
theorem wrapW_of_nonneg (w : BitVec 32) (h : 0 ≤ w.toInt) : wrapW w = w := by
  unfold wrapW IntOp.cmpi
  have hs : w.slt 0#32 = false := by
    rw [BitVec.slt]; simp; omega
  rw [hs]; rfl

/-- A row number, as a 32-bit word, reads back signed as itself. -/
theorem toInt_ofNat_small (k : Nat) (hk : k < 200000) : (BitVec.ofNat 32 k).toInt = (k : ℤ) := by
  rw [BitVec.toInt_eq_toNat_cond, BitVec.toNat_ofNat]
  have : k % 2 ^ 32 = k := Nat.mod_eq_of_lt (by omega)
  rw [this]; split <;> omega

/-- A word whose signed value is the row r is read by a gather as row r. -/
theorem rowOf_of_toInt (w : BitVec 32) (r : Fin 200000) (h : w.toInt = (r.val : ℤ)) : rowOf w = r := by
  have h0 : 0 ≤ w.toInt := by rw [h]; exact Int.natCast_nonneg _
  apply Fin.ext
  unfold rowOf
  simp only
  rw [wrapW_of_nonneg w h0, h, Int.toNat_natCast]
  have := r.isLt
  omega

/-- The messages are the edges followed by the self-loops. -/
theorem split_sum {M : Type*} [AddCommMonoid M] (f : Fin 800000 → M) :
    ∑ e : Fin 800000, f e = (∑ e : Fin 600000, f ⟨e.val, by omega⟩) + ∑ k : Fin 200000, f ⟨600000 + k.val, by omega⟩ := by
  have := Fin.sum_univ_add (a := 600000) (b := 200000) (fun i : Fin (600000 + 200000) => f ⟨i.val, by have := i.isLt; omega⟩)
  exact this

theorem tgtW'_edge (ei : (⟨2, ![2, 600000]⟩ : Shape).Idx → BitVec 32) (e : Fin 600000) :
    tgtW' ei ⟨e.val, by omega⟩ = dstW ei e := by
  unfold tgtW'; rw [dif_pos e.isLt]
theorem srcW'_edge (ei : (⟨2, ![2, 600000]⟩ : Shape).Idx → BitVec 32) (e : Fin 600000) :
    srcW' ei ⟨e.val, by omega⟩ = srcW ei e := by
  unfold srcW'; rw [dif_pos e.isLt]
theorem tgtW'_loop (ei : (⟨2, ![2, 600000]⟩ : Shape).Idx → BitVec 32) (k : Fin 200000) :
    tgtW' ei ⟨600000 + k.val, by omega⟩ = BitVec.ofNat 32 k.val := by
  unfold tgtW'; rw [dif_neg (by simp)]; simp
theorem srcW'_loop (ei : (⟨2, ![2, 600000]⟩ : Shape).Idx → BitVec 32) (k : Fin 200000) :
    srcW' ei ⟨600000 + k.val, by omega⟩ = BitVec.ofNat 32 k.val := by
  unfold srcW'; rw [dif_neg (by simp)]; simp

/-- The self-loop of row k reads row k. -/
theorem rowOf_loop (k : Fin 200000) : rowOf (BitVec.ofNat 32 k.val) = k :=
  rowOf_of_toInt _ k (toInt_ofNat_small k.val k.isLt)

/-- The two degrees are equal: the reference counts the row's self-loop among the messages, the kernel adds one. -/
theorem degR_eq_degK (ei : (⟨2, ![2, 600000]⟩ : Shape).Idx → BitVec 32) (i : Fin 200000) : degR ei i = degK ei i := by
  unfold degR degK cnt
  rw [split_sum]
  simp only [tgtW'_edge, tgtW'_loop]
  have hl : ∀ k : Fin 200000, ((BitVec.ofNat 32 k.val).toInt = (i.val : ℤ)) = ((k.val : ℤ) = (i.val : ℤ)) := fun k => by
    rw [toInt_ofNat_small k.val k.isLt]
  simp only [hl]
  exact (Algebra.degree i zero one _).symm

theorem disR_eq_disK (ei : (⟨2, ![2, 600000]⟩ : Shape).Idx → BitVec 32) (i : Fin 200000) : disR ei i = disK ei i := by
  unfold disR disK; rw [degR_eq_degK]

/-- The factor of a real degree is a real number. -/
theorem disOf_real (x : ℝ) : ∃ y : ℝ, disOf (x : EReal) = (y : EReal) := by
  unfold disOf Scalar.select
  split
  · have h1 : (0 : ℝ) < max x 1 := lt_of_lt_of_le one_pos (le_max_right _ _)
    refine ⟨(Real.sqrt (max x 1))⁻¹, ?_⟩
    have hm : max (x : EReal) ((1 : ℝ) : EReal) = ((max x 1 : ℝ) : EReal) :=
      (EReal.coe_strictMono.monotone.map_max).symm
    rw [one_eq, ← EReal.coe_one, hm]
    show (if max x 1 < 0 then (⊥ : EReal) else if max x 1 = 0 then ⊤ else (((Real.sqrt (max x 1))⁻¹ : ℝ) : EReal)) = _
    rw [if_neg (not_lt.mpr h1.le), if_neg h1.ne']
  · exact ⟨0, by rw [zero_eq]; rfl⟩

theorem cnt_real (ei : (⟨2, ![2, 600000]⟩ : Shape).Idx → BitVec 32) (i : Fin 200000) : ∃ x : ℝ, cnt ei i = (x : EReal) := by
  unfold cnt; rw [one_eq]
  refine ⟨∑ e : Fin 600000, if (dstW ei e).toInt = (i.val : ℤ) then 1 else 0, ?_⟩
  rw [Algebra.coe_sum]
  exact Finset.sum_congr rfl fun e _ => by split <;> simp

theorem disK_real (ei : (⟨2, ![2, 600000]⟩ : Shape).Idx → BitVec 32) (i : Fin 200000) : ∃ y : ℝ, disK ei i = (y : EReal) := by
  obtain ⟨x, hx⟩ := cnt_real ei i
  have hd : degK ei i = ((0 + x + 1 : ℝ) : EReal) := by
    unfold degK; rw [hx, zero_eq, one_eq]; push_cast; rfl
  unfold disK; rw [hd]; exact disOf_real _

/-- A projection entry of real arrays is a real number. -/
theorem proj_real (emb : (⟨2, ![200000, 128]⟩ : Shape).Idx → EReal) (W : (⟨2, ![128, 128]⟩ : Shape).Idx → EReal)
    (hE : ∀ i, ∃ x : ℝ, emb i = (x : EReal)) (hW : ∀ i, ∃ x : ℝ, W i = (x : EReal)) (s : Fin 200000) (j : Fin 128) :
    ∃ x : ℝ, proj emb W s j = (x : EReal) := by
  choose a ha using hE
  choose w hw using hW
  refine ⟨∑ k : Fin 128, a (ix2 s k) * w (ix2 k j), ?_⟩
  unfold proj
  rw [Algebra.coe_sum]
  exact Finset.sum_congr rfl fun k _ => by rw [ha, hw, EReal.coe_mul]

/-- For finite embedding and weight arrays the kernel's form is the reference's form. -/
theorem Kform_eq_Rform (emb : (⟨2, ![200000, 128]⟩ : Shape).Idx → EReal) (ei : (⟨2, ![2, 600000]⟩ : Shape).Idx → BitVec 32)
    (W : (⟨2, ![128, 128]⟩ : Shape).Idx → EReal) (b : (⟨1, ![128]⟩ : Shape).Idx → EReal)
    (hE : ∀ i, ∃ x : ℝ, emb i = (x : EReal)) (hW : ∀ i, ∃ x : ℝ, W i = (x : EReal)) (r : Fin 200000) (j : Fin 128) :
    Kform emb ei W b r j = Rform emb ei W b r j := by
  unfold Kform Rform aggK
  rw [split_sum]
  simp only [tgtW'_edge, tgtW'_loop, srcW'_edge, srcW'_loop, rowOf_loop, disR_eq_disK]
  have hl : ∀ k : Fin 200000, ((BitVec.ofNat 32 k.val).toInt = (r.val : ℤ)) = ((k.val : ℤ) = (r.val : ℤ)) := fun k => by
    rw [toInt_ofNat_small k.val k.isLt]
  simp only [hl, zero_eq]
  exact Algebra.bridge r (fun s => proj emb W s j) (disK ei) (fun s => proj_real emb W hE hW s j) (disK_real ei)
    (fun e => (dstW ei e).toInt) (fun e => rowOf (srcW ei e)) (fun e => rowOf (dstW ei e))
    (fun e h => rowOf_of_toInt _ r h) (b (ix1 j))

end Cert.Gcn

end
-- ==== Proof.lean ====
/-
  The certificate of one graph-convolution layer over 200000 nodes, 600000 directed edges and 128 features:
  out = D^(-1/2) (A + I) D^(-1/2) (X W) + b, where A has one entry per edge (source to target), I is one self-loop per
  node, and D is the number of messages into each node, its self-loop included.

  The reference appends the 200000 self-loops to the edge list (800000 messages), counts the messages into each row for
  its degree d, takes the factor f = 1/√(max d 1) where d > 0 and 0 elsewhere, and sums into row r, over the messages e
  into r, the source row's projection (X W)[src e] times f[src e] · f[tgt e]; then it adds the bias.

  The kernel counts the 600000 edges into each row and adds one for the self-loop, takes the same factor f, and computes:
  in its first region the scaled projection h'[r] = (X W)[r] · f[r], in row blocks of 5000 (the product's operands pass
  through a narrower format, which on the extended reals is the identity); on the host the aggregate
  S[r] = Σ over the edges e into r of h'[src e]; and in its second region f[r] · (S[r] + h'[r]) + b.

  On the extended reals the two results agree entry by entry when the embedding and the weights are finite, which the
  precondition says of them. The degrees are one count (the loop message of row r is the one loop message into r). The
  loop message of row r is (X W)[r] · f[r] · f[r]. The target's factor f[r] comes out of the finite sum over the messages
  into r: multiplication distributes over a sum of real numbers, but not over every sum of extended reals, and this is
  where finiteness is used (the factors f are always real; the projections are real when X and W are). An index word
  that is not a row is read as each operation reads it on both sides: a gather wraps a negative word and clamps, a
  scatter-add drops a target that is not a row.

  The three frame claims are the generated frame runs (the reference's is read off its value run). The idealization
  rewrote no operation, so what it must preserve is the trivial statement. The algebraic claim is assembled from: the
  kernel's run with its result array named; that array read entry by entry as the kernel's closed form (the two regions'
  output arrays and the host operations between them); the reference's result read entry by entry as its closed form; and
  the equality of the two closed forms on finite inputs.
-/
import proofs.«128256_j82669530513964_2_alg».proof.Defs
import proofs.«128256_j82669530513964_2_alg».proof.Proof.Gen.Kernel
import proofs.«128256_j82669530513964_2_alg».proof.Proof.Gen.Kernel.Frame
import proofs.«128256_j82669530513964_2_alg».proof.Proof.Gen.KernelIdeal
import proofs.«128256_j82669530513964_2_alg».proof.Proof.Gen.KernelIdeal.Frame
import proofs.«128256_j82669530513964_2_alg».proof.Proof.Gen.ReferenceIdeal
import proofs.«128256_j82669530513964_2_alg».proof.Proof.Gen.Pre_finite_inputs
import proofs.«128256_j82669530513964_2_alg».proof.Proof.Assemble
import proofs.«128256_j82669530513964_2_alg».proof.Proof.Region0
import proofs.«128256_j82669530513964_2_alg».proof.Proof.Region1
import proofs.«128256_j82669530513964_2_alg».proof.Proof.KernelHost
import proofs.«128256_j82669530513964_2_alg».proof.Proof.RefRead
import proofs.«128256_j82669530513964_2_alg».proof.Proof.Bridge

noncomputable section

namespace Cert.Proof

open Idealize.ShloMosaic Idealize.SL.Sem

/-- The kernel as printed runs and leaves its arguments unchanged: the generated frame run. -/
theorem frame_k : Cert.frame_Kernel := fun m ρ _ => Cert.Kernel.Gen.frame m ρ

/-- The idealized kernel runs and leaves its arguments unchanged: the generated frame run. -/
theorem frame_ki : Cert.frame_KernelIdeal := fun m ρ _ => Cert.KernelIdeal.Gen.frame m ρ

/-- The reference runs and leaves its arguments unchanged: its value run, the result's equation dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- Both programs run and end with one result array: the kernel's entry (r, j) is its closed form (the two regions'
    output arrays joined by the host operations), the reference's is its closed form, and the closed forms agree on finite
    embeddings and weights. -/
theorem algebraic : Cert.algebraic_KernelIdeal_ReferenceIdeal :=
  Cert.Proof.Assemble.algebraic_of
    (fun m ρ c r j => Cert.KernelIdeal.HostValue.kernel_value Cert.KernelIdeal.RegionValue.final0
      Cert.KernelIdeal.RegionValue.final1 m ρ c r j)
    Cert.ReferenceIdeal.RefValue.ref_value
    Cert.Gcn.Kform_eq_Rform

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
